-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v12_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part5 {F : FTy → Type} [FloatOps F] (main_v83 : IVec S_ 1) (main_v84 : FVec F S4096 .f32) (main_cst_32 : FVec F S_ .f32) : IVec S_ 1 :=
  let main_v85 : FVec F S4096 .f32 := broadcastInDim S4096 ![] bcast_S_S4096 main_cst_32
  let main_v86 : IVec S4096 1 := cmpf .olt main_v84 main_v85
  let main_c_33 : IVec S_ 1 := constantI S_ 1 1#1
  let main_v87 : IVec S_ 1 := (fun x v => Host.reduce IntOp.andi x v reducesTo_S4096_S_d0 h_S_) main_v86 main_c_33
  let main_v88 : IVec S_ 1 := andi main_v83 main_v87
  main_v88

def fn_part4 {F : FTy → Type} [FloatOps F] (main_arg14 : FVec F S1024x2048 .f32) (main_arg15 : FVec F S1024 .f32) (main_arg16 : FVec F S4096x2048 .f32) (main_arg17 : FVec F S4096 .f32) (main_v63 : IVec S_ 1) (main_v67 : IVec S_ 1) : IVec S_ 1 :=
  let main_v68 : IVec S_ 1 := andi main_v63 main_v67
  let main_v69 : FVec F S1024x2048 .f32 := Host.absf main_arg14
  let main_cst_26 : FVec F S_ .f32 := constant S_ .f32 0x7F800000#32
  let main_v70 : FVec F S1024x2048 .f32 := broadcastInDim S1024x2048 ![] bcast_S_S1024x2048 main_cst_26
  let main_v71 : IVec S1024x2048 1 := cmpf .olt main_v69 main_v70
  let main_c_27 : IVec S_ 1 := constantI S_ 1 1#1
  let main_v72 : IVec S_ 1 := (fun x v => Host.reduce IntOp.andi x v reducesTo_S1024x2048_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S4096x2048 .f32 := Host.absf main_arg16
  let main_cst_30 : FVec F S_ .f32 := constant S_ .f32 0x7F800000#32
  let main_v80 : FVec F S4096x2048 .f32 := broadcastInDim S4096x2048 ![] bcast_S_S4096x2048 main_cst_30
  let main_v81 : IVec S4096x2048 1 := cmpf .olt main_v79 main_v80
  let main_c_31 : IVec S_ 1 := constantI S_ 1 1#1
  let main_v82 : IVec S_ 1 := (fun x v => Host.reduce IntOp.andi x v reducesTo_S4096x2048_S_d0_1 h_S_) main_v81 main_c_31
  let main_v83 : IVec S_ 1 := andi main_v78 main_v82
  let main_v84 : FVec F S4096 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024 .f32) (main_arg12 : FVec F S1024x2048 .f32) (main_arg13 : FVec F S1024 .f32) (main_arg14 : FVec F S1024x2048 .f32) (main_arg15 : FVec F S1024 .f32) (main_arg16 : FVec F S4096x2048 .f32) (main_arg17 : FVec F S4096 .f32) (main_v48 : IVec S_ 1) (main_v49 : FVec F S1024x2048 .f32) (main_v50 : FVec F S1024x2048 .f32) : IVec S_ 1 :=
  let main_v51 : IVec S1024x2048 1 := cmpf .olt main_v49 main_v50
  let main_c_19 : IVec S_ 1 := constantI S_ 1 1#1
  let main_v52 : IVec S_ 1 := (fun x v => Host.reduce IntOp.andi x v reducesTo_S1024x2048_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x2048 .f32 := Host.absf main_arg12
  let main_cst_22 : FVec F S_ .f32 := constant S_ .f32 0x7F800000#32
  let main_v60 : FVec F S1024x2048 .f32 := broadcastInDim S1024x2048 ![] bcast_S_S1024x2048 main_cst_22
  let main_v61 : IVec S1024x2048 1 := cmpf .olt main_v59 main_v60
  let main_c_23 : IVec S_ 1 := constantI S_ 1 1#1
  let main_v62 : IVec S_ 1 := (fun x v => Host.reduce IntOp.andi x v reducesTo_S1024x2048_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_v63 main_v67

def fn_part2 {F : FTy → Type} [FloatOps F] (main_arg7 : FVec F S1024 .f32) (main_arg8 : FVec F S1024x2048 .f32) (main_arg9 : FVec F S1024 .f32) (main_arg10 : FVec F S1024x2048 .f32) (main_arg11 : FVec F S1024 .f32) (main_arg12 : FVec F S1024x2048 .f32) (main_arg13 : FVec F S1024 .f32) (main_arg14 : FVec F S1024x2048 .f32) (main_arg15 : FVec F S1024 .f32) (main_arg16 : FVec F S4096x2048 .f32) (main_arg17 : FVec F S4096 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x2048 .f32 := Host.absf main_arg8
  let main_cst_14 : FVec F S_ .f32 := constant S_ .f32 0x7F800000#32
  let main_v40 : FVec F S1024x2048 .f32 := broadcastInDim S1024x2048 ![] bcast_S_S1024x2048 main_cst_14
  let main_v41 : IVec S1024x2048 1 := cmpf .olt main_v39 main_v40
  let main_c_15 : IVec S_ 1 := constantI S_ 1 1#1
  let main_v42 : IVec S_ 1 := (fun x v => Host.reduce IntOp.andi x v reducesTo_S1024x2048_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x2048 .f32 := Host.absf main_arg10
  let main_cst_18 : FVec F S_ .f32 := constant S_ .f32 0x7F800000#32
  let main_v50 : FVec F S1024x2048 .f32 := broadcastInDim S1024x2048 ![] bcast_S_S1024x2048 main_cst_18
  fn_part3 (F := F) main_arg11 main_arg12 main_arg13 main_arg14 main_arg15 main_arg16 main_arg17 main_v48 main_v49 main_v50

def fn_part1 {F : FTy → Type} [FloatOps F] (main_arg4 : FVec F S1024x2048 .f32) (main_arg5 : FVec F S1024 .f32) (main_arg6 : FVec F S1024x2048 .f32) (main_arg7 : FVec F S1024 .f32) (main_arg8 : FVec F S1024x2048 .f32) (main_arg9 : FVec F S1024 .f32) (main_arg10 : FVec F S1024x2048 .f32) (main_arg11 : FVec F S1024 .f32) (main_arg12 : FVec F S1024x2048 .f32) (main_arg13 : FVec F S1024 .f32) (main_arg14 : FVec F S1024x2048 .f32) (main_arg15 : FVec F S1024 .f32) (main_arg16 : FVec F S4096x2048 .f32) (main_arg17 : FVec F S4096 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S1024x2048 .f32) (main_arg5 : FVec F S1024 .f32) (main_arg6 : FVec F S1024x2048 .f32) (main_arg7 : FVec F S1024 .f32) (main_arg8 : FVec F S1024x2048 .f32) (main_arg9 : FVec F S1024 .f32) (main_arg10 : FVec F S1024x2048 .f32) (main_arg11 : FVec F S1024 .f32) (main_arg12 : FVec F S1024x2048 .f32) (main_arg13 : FVec F S1024 .f32) (main_arg14 : FVec F S1024x2048 .f32) (main_arg15 : FVec F S1024 .f32) (main_arg16 : FVec F S4096x2048 .f32) (main_arg17 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8192x1024 : Shape := ⟨2, ![8192, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S6144x2048 : Shape := ⟨2, ![6144, 2048]⟩
abbrev S6144 : Shape := ⟨1, ![6144]⟩
abbrev S6144x1024 : Shape := ⟨2, ![6144, 1024]⟩
abbrev S1x6144 : Shape := ⟨2, ![1, 6144]⟩
abbrev S4096x1024 : Shape := ⟨2, ![4096, 1024]⟩
abbrev S1x4096 : Shape := ⟨2, ![1, 4096]⟩
abbrev S256x1024 : Shape := ⟨2, ![256, 1024]⟩
abbrev S1024x1024 : Shape := ⟨2, ![1024, 1024]⟩
abbrev S1x1024 : Shape := ⟨2, ![1, 1024]⟩
abbrev S8192x4096 : Shape := ⟨2, ![8192, 4096]⟩
abbrev S256x4096 : Shape := ⟨2, ![256, 4096]⟩
abbrev S8192x1024x4 : Shape := ⟨3, ![8192, 1024, 4]⟩

abbrev nBuf : Space → Nat
  | .hbm => 35
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x2048, .f32⟩
  | .hbm, ⟨9, _⟩ => ⟨S1024, .f32⟩
  | .hbm, ⟨10, _⟩ => ⟨S1024x2048, .f32⟩
  | .hbm, ⟨11, _⟩ => ⟨S1024, .f32⟩
  | .hbm, ⟨12, _⟩ => ⟨S1024x2048, .f32⟩
  | .hbm, ⟨13, _⟩ => ⟨S1024, .f32⟩
  | .hbm, ⟨14, _⟩ => ⟨S1024x2048, .f32⟩
  | .hbm, ⟨15, _⟩ => ⟨S1024, .f32⟩
  | .hbm, ⟨16, _⟩ => ⟨S4096x2048, .f32⟩
  | .hbm, ⟨17, _⟩ => ⟨S4096, .f32⟩
  | .hbm, ⟨18, _⟩ => ⟨S6144x2048, .f32⟩
  | .hbm, ⟨19, _⟩ => ⟨S6144, .f32⟩
  | .hbm, ⟨20, _⟩ => ⟨S6144x1024, .f32⟩
  | .hbm, ⟨21, _⟩ => ⟨S6144x1024, .bf16⟩
  | .hbm, ⟨22, _⟩ => ⟨S6144x1024, .f32⟩
  | .hbm, ⟨23, _⟩ => ⟨S6144x1024, .bf16⟩
  | .hbm, ⟨24, _⟩ => ⟨S1x6144, .f32⟩
  | .hbm, ⟨25, _⟩ => ⟨S4096x1024, .f32⟩
  | .hbm, ⟨26, _⟩ => ⟨S4096x1024, .bf16⟩
  | .hbm, ⟨27, _⟩ => ⟨S4096x1024, .f32⟩
  | .hbm, ⟨28, _⟩ => ⟨S4096x1024, .bf16⟩
  | .hbm, ⟨29, _⟩ => ⟨S1x4096, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x4096, .f32⟩
  | .hbm, ⟨34, _⟩ => ⟨S8192x1024x4, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S6144x1024, .bf16⟩
  | .local _ .vmem, ⟨9, _⟩ => ⟨S6144x1024, .bf16⟩
  | .local _ .vmem, ⟨10, _⟩ => ⟨S1x6144, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S4096x1024, .bf16⟩
  | .local _ .vmem, ⟨22, _⟩ => ⟨S4096x1024, .bf16⟩
  | .local _ .vmem, ⟨23, _⟩ => ⟨S1x4096, .f32⟩
  | .local _ .vmem, ⟨24, _⟩ => ⟨S256x4096, .f32⟩
  | .local _ .vmem, ⟨25, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v13 : Ref sig .tc := ⟨.hbm, 33, rfl⟩
abbrev main_v14 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6144x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6144x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  concatenates_S1024x2048_S1024x2048_S1024x2048_S1024x2048_S1024x2048_S1024x2048_S6144x2048_d0 : Shape.Concatenates [S1024x2048, S1024x2048, S1024x2048, S1024x2048, S1024x2048, S1024x2048] S6144x2048 0
  concatenates_S1024_S1024_S1024_S1024_S1024_S1024_S6144_d0 : Shape.Concatenates [S1024, S1024, S1024, S1024, S1024, S1024] S6144 0
  slices_S6144x2048_S6144x1024_0_0 : S6144x2048.Slices ![0, 0] S6144x1024
  bitsLt_bf16_f32 : FTy.bits .bf16 < FTy.bits .f32
  slices_S6144x2048_S6144x1024_0_1024 : S6144x2048.Slices ![0, 1024] S6144x1024
  shapeCasts_S6144_S1x6144 : S6144.ShapeCasts S1x6144
  slices_S4096x2048_S4096x1024_0_0 : S4096x2048.Slices ![0, 0] S4096x1024
  slices_S4096x2048_S4096x1024_0_1024 : S4096x2048.Slices ![0, 1024] S4096x1024
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S6144x1024_S1024x1024_5120_0 : ∀ a, (![5120, 0] : Fin 2 → Nat) a + S1024x1024.size a ≤ S6144x1024.size a
  h_S1024x1024 : 0 < S1024x1024.numel
  shapeCasts_S1024x1024_S1024x1024 : S1024x1024.ShapeCasts S1024x1024
  inb_S1x6144_S1x1024_0_5120 : ∀ a, (![0, 5120] : Fin 2 → Nat) a + S1x1024.size a ≤ S1x6144.size a
  h_S1x1024 : 0 < S1x1024.numel
  shapeCasts_S1x1024_S1x1024 : S1x1024.ShapeCasts S1x1024
  broadcasts_S1x1024_S256x1024 : S1x1024.Broadcasts S256x1024
  inb_S6144x1024_S1024x1024_0_0 : ∀ a, (![0, 0] : Fin 2 → Nat) a + S1024x1024.size a ≤ S6144x1024.size a
  inb_S1x6144_S1x1024_0_0 : ∀ a, (![0, 0] : Fin 2 → Nat) a + S1x1024.size a ≤ S1x6144.size a
  inb_S6144x1024_S1024x1024_1024_0 : ∀ a, (![1024, 0] : Fin 2 → Nat) a + S1024x1024.size a ≤ S6144x1024.size a
  inb_S1x6144_S1x1024_0_1024 : ∀ a, (![0, 1024] : Fin 2 → Nat) a + S1x1024.size a ≤ S1x6144.size a
  inb_S6144x1024_S1024x1024_3072_0 : ∀ a, (![3072, 0] : Fin 2 → Nat) a + S1024x1024.size a ≤ S6144x1024.size a
  inb_S1x6144_S1x1024_0_3072 : ∀ a, (![0, 3072] : Fin 2 → Nat) a + S1x1024.size a ≤ S1x6144.size a
  inb_S6144x1024_S1024x1024_4096_0 : ∀ a, (![4096, 0] : Fin 2 → Nat) a + S1024x1024.size a ≤ S6144x1024.size a
  inb_S1x6144_S1x1024_0_4096 : ∀ a, (![0, 4096] : Fin 2 → Nat) a + S1x1024.size a ≤ S1x6144.size a
  inb_S6144x1024_S1024x1024_2048_0 : ∀ a, (![2048, 0] : Fin 2 → Nat) a + S1024x1024.size a ≤ S6144x1024.size a
  inb_S1x6144_S1x1024_0_2048 : ∀ a, (![0, 2048] : Fin 2 → Nat) a + S1x1024.size a ≤ S1x6144.size a
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S8192x4096_S8192x1024x4 : S8192x4096.ShapeCasts S8192x1024x4
  dot_S256x1024_S1024x1024_S256x1024_1_1_0_0_n_n_wf : DotDims.WF S256x1024 S1024x1024 S256x1024 [1] [1] [0] [0] [] []
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6144x1024.size a ≤ S6144x1024.size a
  hwx0_4 : ∀ i : grid0.Coords, EltTy.bits .bf16 = 32 ∨ (Rect.block (s := S6144x1024) S6144x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6144x1024.size a ≤ S6144x1024.size a
  hwx0_5 : ∀ i : grid0.Coords, EltTy.bits .bf16 = 32 ∨ (Rect.block (s := S6144x1024) S6144x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x6144.size a ≤ S1x6144.size a
  hwx0_6 : ∀ i : grid0.Coords, EltTy.bits .f32 = 32 ∨ (Rect.block (s := S1x6144) S1x6144.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S8192x1024.size a
  hwx1_0 : ∀ i : grid1.Coords, EltTy.bits .f32 = 32 ∨ (Rect.block (s := S8192x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S8192x1024.size a
  hwx1_1 : ∀ i : grid1.Coords, EltTy.bits .f32 = 32 ∨ (Rect.block (s := S8192x1024) S256x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x4096.size a ≤ S8192x4096.size a
  hwx1_5 : ∀ i : grid1.Coords, EltTy.bits .f32 = 32 ∨ (Rect.block (s := S8192x4096) S256x4096.size (cc1_transform_5 i) (hinb1_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S6144x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S6144x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x6144.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_2) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S256x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S8192x2048 : Shape := ⟨2, ![8192, 2048]⟩
abbrev S10240x2048 : Shape := ⟨2, ![10240, 2048]⟩
abbrev S10240 : Shape := ⟨1, ![10240]⟩
abbrev S2048x10240 : Shape := ⟨2, ![2048, 10240]⟩
abbrev S8192x10240 : Shape := ⟨2, ![8192, 10240]⟩
abbrev S1x10240 : Shape := ⟨2, ![1, 10240]⟩
abbrev S_ : Shape := ⟨0, ![]⟩
abbrev S8192x4096 : Shape := ⟨2, ![8192, 4096]⟩
abbrev S8192x1024x4 : Shape := ⟨3, ![8192, 1024, 4]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x2048, .f32⟩
  | .hbm, ⟨9, _⟩ => ⟨S1024, .f32⟩
  | .hbm, ⟨10, _⟩ => ⟨S1024x2048, .f32⟩
  | .hbm, ⟨11, _⟩ => ⟨S1024, .f32⟩
  | .hbm, ⟨12, _⟩ => ⟨S1024x2048, .f32⟩
  | .hbm, ⟨13, _⟩ => ⟨S1024, .f32⟩
  | .hbm, ⟨14, _⟩ => ⟨S1024x2048, .f32⟩
  | .hbm, ⟨15, _⟩ => ⟨S1024, .f32⟩
  | .hbm, ⟨16, _⟩ => ⟨S4096x2048, .f32⟩
  | .hbm, ⟨17, _⟩ => ⟨S4096, .f32⟩
  | .hbm, ⟨18, _⟩ => ⟨S8192x2048, .f32⟩
  | .hbm, ⟨19, _⟩ => ⟨S10240x2048, .f32⟩
  | .hbm, ⟨20, _⟩ => ⟨S10240, .f32⟩
  | .hbm, ⟨21, _⟩ => ⟨S2048x10240, .f32⟩
  | .hbm, ⟨22, _⟩ => ⟨S8192x10240, .f32⟩
  | .hbm, ⟨23, _⟩ => ⟨S1x10240, .f32⟩
  | .hbm, ⟨24, _⟩ => ⟨S8192x10240, .f32⟩
  | .hbm, ⟨25, _⟩ => ⟨S8192x10240, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x4096, .f32⟩
  | .hbm, ⟨74, _⟩ => ⟨S_, .f32⟩
  | .hbm, ⟨75, _⟩ => ⟨S8192x4096, .f32⟩
  | .hbm, ⟨76, _⟩ => ⟨S8192x4096, .f32⟩
  | .hbm, ⟨77, _⟩ => ⟨S_, .f32⟩
  | .hbm, ⟨78, _⟩ => ⟨S8192x4096, .f32⟩
  | .hbm, ⟨79, _⟩ => ⟨S8192x4096, .f32⟩
  | .hbm, ⟨80, _⟩ => ⟨S8192x4096, .f32⟩
  | .hbm, ⟨81, _⟩ => ⟨S8192x4096, .f32⟩
  | .hbm, ⟨82, _⟩ => ⟨S8192x4096, .i1⟩
  | .hbm, ⟨83, _⟩ => ⟨S8192x4096, .f32⟩
  | .hbm, ⟨84, _⟩ => ⟨S8192x4096, .f32⟩
  | .hbm, ⟨85, _⟩ => ⟨S8192x4096, .f32⟩
  | .hbm, ⟨86, _⟩ => ⟨S8192x4096, .f32⟩
  | .hbm, ⟨87, _⟩ => ⟨S8192x4096, .f32⟩
  | .hbm, ⟨88, _⟩ => ⟨S8192x4096, .f32⟩
  | .hbm, ⟨89, _⟩ => ⟨S8192x4096, .f32⟩
  | .hbm, ⟨90, _⟩ => ⟨S8192x4096, .f32⟩
  | .hbm, ⟨91, _⟩ => ⟨S_, .f32⟩
  | .hbm, ⟨92, _⟩ => ⟨S8192x4096, .f32⟩
  | .hbm, ⟨93, _⟩ => ⟨S8192x4096, .f32⟩
  | .hbm, ⟨94, _⟩ => ⟨S8192x1024x4, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_v48 : Ref sig .tc := ⟨.hbm, 90, rfl⟩
abbrev main_cst_10 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S1024x2048_S1024x2048_S1024x2048_S1024x2048_S1024x2048_S1024x2048_S4096x2048_S10240x2048_d0 : Shape.Concatenates [S1024x2048, S1024x2048, S1024x2048, S1024x2048, S1024x2048, S1024x2048, S4096x2048] S10240x2048 0
  concatenates_S1024_S1024_S1024_S1024_S1024_S1024_S4096_S10240_d0 : Shape.Concatenates [S1024, S1024, S1024, S1024, S1024, S1024, S4096] S10240 0
  transposes_S10240x2048_S2048x10240_1_0 : S10240x2048.Transposes [1, 0] S2048x10240
  bcast_S10240_S1x10240_1 : S10240.BroadcastsInDim S1x10240 (![1] : Fin 1 → Fin S1x10240.rank)
  bcast_S1x10240_S8192x10240_0_1 : S1x10240.BroadcastsInDim S8192x10240 (![0, 1] : Fin 2 → Fin S8192x10240.rank)
  slices_S8192x10240_S8192x1024_0_0 : S8192x10240.Slices ![0, 0] S8192x1024
  bcast_S_S8192x1024 : S_.BroadcastsInDim S8192x1024 (![] : Fin 0 → Fin S8192x1024.rank)
  slices_S8192x10240_S8192x1024_0_1024 : S8192x10240.Slices ![0, 1024] S8192x1024
  slices_S8192x10240_S8192x1024_0_2048 : S8192x10240.Slices ![0, 2048] S8192x1024
  slices_S8192x10240_S8192x1024_0_3072 : S8192x10240.Slices ![0, 3072] S8192x1024
  slices_S8192x10240_S8192x1024_0_4096 : S8192x10240.Slices ![0, 4096] S8192x1024
  slices_S8192x10240_S8192x1024_0_5120 : S8192x10240.Slices ![0, 5120] S8192x1024
  slices_S8192x10240_S8192x4096_0_6144 : S8192x10240.Slices ![0, 6144] S8192x4096
  bcast_S_S8192x4096 : S_.BroadcastsInDim S8192x4096 (![] : Fin 0 → Fin S8192x4096.rank)
  shapeCasts_S8192x4096_S8192x1024x4 : S8192x4096.ShapeCasts S8192x1024x4
  dot_S8192x2048_S2048x10240_S8192x10240_1_0_0_1_n_n_wf : DotDims.WF S8192x2048 S2048x10240 S8192x10240 [1] [0] [0] [1] [] []

variable [Facts₀]

def dot_S8192x2048_S2048x10240_S8192x10240_1_0_0_1_n_n : DotDims S8192x2048 S2048x10240 S8192x10240 where
  lhsContracting := [1]
  rhsContracting := [0]
  lhsNonContracting := [0]
  rhsNonContracting := [1]
  lhsBatch := []
  rhsBatch := []
  wf := dot_S8192x2048_S2048x10240_S8192x10240_1_0_0_1_n_n_wf

class Facts : Prop extends Facts₀ where

variable [Facts]
-- ==== Proof.BitsRegion0.lean ====
/-
  The gates kernel's region, at the buffer contents `V` the region is entered with.

  The grid has 32 points; point `t` works on rows `256 t … 256 t + 255` of the four row operands and of the three
  results, and on the whole of the two stacked weight halves (six gates of 1024 rows each) and of the stacked bias row
  (their block index never moves, so they are staged once).  The body loads the row blocks whole and, per gate `g`, rows
  `1024 g … 1024 g + 1023` of each weight half and columns `1024 g … 1024 g + 1023` of the bias row; it stores three
  whole result blocks, each one value of those loads (`out0_7`, `out0_8`, `out0_9`).
-/
import proofs.«115463_j39719857553628_2_alg».proof.Proof.Gen.Kernel.Launch
import proofs.«115463_j39719857553628_2_alg».proof.Proof.Gen.Kernel.Skeleton
import proofs.«115463_j39719857553628_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's rectangles -/

/-- A whole row block. -/
abbrev rRow0 : Rect S256x1024 := Rect.unit (s := S256x1024) ![0, 0] S256x1024.size inb_S256x1024_S256x1024_0_0
/-- Gate `g`'s 1024 rows of a stacked weight half. -/
abbrev rW0 : Rect S6144x1024 := Rect.unit (s := S6144x1024) ![0, 0] S1024x1024.size inb_S6144x1024_S1024x1024_0_0
abbrev rW1 : Rect S6144x1024 := Rect.unit (s := S6144x1024) ![1024, 0] S1024x1024.size inb_S6144x1024_S1024x1024_1024_0
abbrev rW2 : Rect S6144x1024 := Rect.unit (s := S6144x1024) ![2048, 0] S1024x1024.size inb_S6144x1024_S1024x1024_2048_0
abbrev rW3 : Rect S6144x1024 := Rect.unit (s := S6144x1024) ![3072, 0] S1024x1024.size inb_S6144x1024_S1024x1024_3072_0
abbrev rW4 : Rect S6144x1024 := Rect.unit (s := S6144x1024) ![4096, 0] S1024x1024.size inb_S6144x1024_S1024x1024_4096_0
abbrev rW5 : Rect S6144x1024 := Rect.unit (s := S6144x1024) ![5120, 0] S1024x1024.size inb_S6144x1024_S1024x1024_5120_0
/-- Gate `g`'s 1024 columns of the stacked bias row. -/
abbrev rB0 : Rect S1x6144 := Rect.unit (s := S1x6144) ![0, 0] S1x1024.size inb_S1x6144_S1x1024_0_0
abbrev rB1 : Rect S1x6144 := Rect.unit (s := S1x6144) ![0, 1024] S1x1024.size inb_S1x6144_S1x1024_0_1024
abbrev rB2 : Rect S1x6144 := Rect.unit (s := S1x6144) ![0, 2048] S1x1024.size inb_S1x6144_S1x1024_0_2048
abbrev rB3 : Rect S1x6144 := Rect.unit (s := S1x6144) ![0, 3072] S1x1024.size inb_S1x6144_S1x1024_0_3072
abbrev rB4 : Rect S1x6144 := Rect.unit (s := S1x6144) ![0, 4096] S1x1024.size inb_S1x6144_S1x1024_0_4096
abbrev rB5 : Rect S1x6144 := Rect.unit (s := S1x6144) ![0, 5120] S1x1024.size inb_S1x6144_S1x1024_0_5120

/-! ## What the body leaves in each result's buffer -/

/-- The candidate `tanh` value (gate 5), shared by both cell updates. -/
def cand0 (x0 x1 : Vec F S256x1024 .f32) (x4 x5 : Vec F S6144x1024 .bf16) (x6 : Vec F S1x6144 .f32) : FVec F S256x1024 .f32 :=
  k0_pay5 (View.ld x0 rRow0) (View.ld x1 rRow0) (View.ld x4 rW5) (View.ld x5 rW5) (View.ld x6 rB5)

/-- The first result's staging buffer after the body (the cell update with gates 0 and 1). -/
def out0_7 (x0 x1 x2 : Vec F S256x1024 .f32) (x4 x5 : Vec F S6144x1024 .bf16) (x6 : Vec F S1x6144 .f32) : Vec F S256x1024 .f32 :=
  View.canon [⟨rRow0, k0_pay9 (k0_pay4 (View.ld x1 rRow0)) (cand0 x0 x1 x4 x5 x6)
    (k0_pay6 (View.ld x0 rRow0) (View.ld x1 rRow0) (View.ld x4 rW0) (View.ld x5 rW0) (View.ld x6 rB0))
    (k0_pay7 (View.ld x5 rW1)) (k0_pay8 (View.ld x0 rRow0) (View.ld x4 rW1)) (constant S256x1024 .f32 0x00000000#32)
    (View.ld x6 rB1) (View.ld x2 rRow0)⟩]

/-- The second result's (the cell update with gates 3 and 4). -/
def out0_8 (x0 x1 x3 : Vec F S256x1024 .f32) (x4 x5 : Vec F S6144x1024 .bf16) (x6 : Vec F S1x6144 .f32) : Vec F S256x1024 .f32 :=
  View.canon [⟨rRow0, k0_pay1 (cand0 x0 x1 x4 x5 x6)
    (k0_pay10 (k0_pay3 (View.ld x0 rRow0)) (k0_pay4 (View.ld x1 rRow0)) (View.ld x4 rW3) (View.ld x5 rW3) (View.ld x6 rB3))
    (k0_pay11 (k0_pay3 (View.ld x0 rRow0)) (k0_pay4 (View.ld x1 rRow0)) (View.ld x4 rW4) (View.ld x5 rW4) (View.ld x6 rB4))
    (View.ld x3 rRow0)⟩]

/-- The third result's (gate 2). -/
def out0_9 (x0 x1 : Vec F S256x1024 .f32) (x4 x5 : Vec F S6144x1024 .bf16) (x6 : Vec F S1x6144 .f32) : Vec F S256x1024 .f32 :=
  View.canon [⟨rRow0, k0_pay2 (k0_pay3 (View.ld x0 rRow0)) (k0_pay4 (View.ld x1 rRow0)) (View.ld x4 rW2) (View.ld x5 rW2) (View.ld x6 rB2)⟩]

/-- A store of a whole row block covers it. -/
theorem cover0 (p0 : Vec F S256x1024 .f32) (y : S256x1024.Idx) :
    ∃ pc ∈ ([⟨rRow0, p0⟩] : List (View.Piece (Elt F) S256x1024 .f32)), y ∈ pc.1.set :=
  View.cover_of_tiled [⟨rRow0, p0⟩] S256x1024.size (by rfl) y

/-! ## The body's triple -/

set_option maxHeartbeats 4000000 in
/-- The body on whole staging memrefs, the inputs' at contents `x·` and the results' at anything, runs to the
    continuation holding the inputs' as they were and each result's at its `out0_·` of them. -/
theorem sound_kernel0 (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S6144x1024 .bf16) (harg5 : arg5.IsWhole) (arg6 : Memref sig .tc .vmem S6144x1024 .bf16) (harg6 : arg6.IsWhole)
    (arg7 : Memref sig .tc .vmem S1x6144 .f32) (harg7 : arg7.IsWhole) (arg8 : Memref sig .tc .vmem S256x1024 .f32) (harg8 : arg8.IsWhole)
    (arg9 : Memref sig .tc .vmem S256x1024 .f32) (harg9 : arg9.IsWhole) (arg10 : Memref sig .tc .vmem S256x1024 .f32) (harg10 : arg10.IsWhole)
    (x0 x1 x2 x3 : Vec F S256x1024 .f32) (x4 x5 : Vec F S6144x1024 .bf16) (x6 : Vec F S1x6144 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out0_7 x0 x1 x2 x4 x5 x6)
            ∗ owns (c : Thread nD τ) arg9 fullShare (out0_8 x0 x1 x3 x4 x5 x6)
            ∗ owns (c : Thread nD τ) arg10 fullShare (out0_9 x0 x1 x4 x5 x6)) -∗ K ⟨⟩))
      ⊢ wp frame (wpE (defs₀ (F := F)) Variants.none c none) E
          (cc0__gates_kernel i arg1 harg1 arg2 harg2 arg3 harg3 arg4 harg4 arg5 harg5 arg6 harg6 arg7 harg7 arg8 harg8 arg9 harg9 arg10 harg10) K := by
  simp only [cc0__gates_kernel_eq_skeleton]; unfold cc0__gates_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## Each input window's buffer holds its block at every point -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The arrays as the region finds them; after the body at point `t` each input's buffer at its block and each
    result's at its `out0_·` of the input blocks; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 4 t) (iblk0 V c 5 t) (iblk0 V c 6 t)
    | ⟨8, _⟩ => out0_8 (iblk0 V c 0 t) (iblk0 V c 1 t) (iblk0 V c 3 t) (iblk0 V c 4 t) (iblk0 V c 5 t) (iblk0 V c 6 t)
    | ⟨9, _⟩ => out0_9 (iblk0 V c 0 t) (iblk0 V c 1 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 4 t) (iblk0 V c 5 t) (iblk0 V c 6 t) := by dsimp only [dat0]
theorem after0_8 (c : Dev nD) (t : Fin cfg0.N) : (dat0 V c).after 8 t
    = out0_8 (iblk0 V c 0 t) (iblk0 V c 1 t) (iblk0 V c 3 t) (iblk0 V c 4 t) (iblk0 V c 5 t) (iblk0 V c 6 t) := by dsimp only [dat0]
theorem after0_9 (c : Dev nD) (t : Fin cfg0.N) : (dat0 V c).after 9 t
    = out0_9 (iblk0 V c 0 t) (iblk0 V c 1 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t)
    (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/-
  The decay kernel's region, at the buffer contents `V` the region is entered with.

  The grid has 32 points; point `t` works on rows `256 t … 256 t + 255` of the two row operands and of the result, and
  on the whole of the two weight halves and of the bias row (their block index never moves, so they are staged once).
  The body loads its five operand blocks whole, computes one 256 × 4096 value from them and stores it over the whole
  result block: the result's staging buffer after the body is that value of the five input blocks (`out1_5`).
-/
import proofs.«115463_j39719857553628_2_alg».proof.Proof.Gen.Kernel.Launch
import proofs.«115463_j39719857553628_2_alg».proof.Proof.Gen.Kernel.Skeleton
import proofs.«115463_j39719857553628_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's rectangles: every access is a whole block -/

abbrev rRow1 : Rect S256x1024 := Rect.unit (s := S256x1024) ![0, 0] S256x1024.size inb_S256x1024_S256x1024_0_0
abbrev rWt1 : Rect S4096x1024 := Rect.unit (s := S4096x1024) ![0, 0] S4096x1024.size inb_S4096x1024_S4096x1024_0_0
abbrev rBias1 : Rect S1x4096 := Rect.unit (s := S1x4096) ![0, 0] S1x4096.size inb_S1x4096_S1x4096_0_0
abbrev rOut1 : Rect S256x4096 := Rect.unit (s := S256x4096) ![0, 0] S256x4096.size inb_S256x4096_S256x4096_0_0

/-! ## What the body leaves in the result's buffer -/

/-- The result's staging buffer after the body, from the five input blocks: its one store, of the payload of the
    five whole-block loads. -/
def out1_5 (x0 x1 : Vec F S256x1024 .f32) (x2 x3 : Vec F S4096x1024 .bf16) (x4 : Vec F S1x4096 .f32) : Vec F S256x4096 .f32 :=
  View.canon [⟨rOut1, k1_pay1 (View.ld x0 rRow1) (View.ld x1 rRow1) (View.ld x2 rWt1) (View.ld x3 rWt1) (View.ld x4 rBias1)⟩]

/-- The one store is of the whole block, so it covers it. -/
theorem cover1_5 (p0 : Vec F S256x4096 .f32) (y : S256x4096.Idx) :
    ∃ pc ∈ ([⟨rOut1, p0⟩] : List (View.Piece (Elt F) S256x4096 .f32)), y ∈ pc.1.set :=
  View.cover_of_tiled [⟨rOut1, p0⟩] S256x4096.size (by rfl) y

/-! ## The body's triple -/

set_option maxHeartbeats 1000000 in
/-- The body on whole staging memrefs, the inputs' at contents `x·` and the result's at anything, runs to the
    continuation holding the inputs' as they were and the result's at `out1_5` of them. -/
theorem sound_kernel1 (c : Dev nD) (E : Set ℕ) (i : grid1.Coords)
    (arg1 : Memref sig .tc .vmem S256x1024 .f32) (harg1 : arg1.IsWhole) (arg2 : Memref sig .tc .vmem S256x1024 .f32) (harg2 : arg2.IsWhole)
    (arg3 : Memref sig .tc .vmem S4096x1024 .bf16) (harg3 : arg3.IsWhole) (arg4 : Memref sig .tc .vmem S4096x1024 .bf16) (harg4 : arg4.IsWhole)
    (arg5 : Memref sig .tc .vmem S1x4096 .f32) (harg5 : arg5.IsWhole) (arg6 : Memref sig .tc .vmem S256x4096 .f32) (harg6 : arg6.IsWhole)
    (x0 x1 : Vec F S256x1024 .f32) (x2 x3 : Vec F S4096x1024 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__decay_kernel i arg1 harg1 arg2 harg2 arg3 harg3 arg4 harg4 arg5 harg5 arg6 harg6) K := by
  simp only [cc1__decay_kernel_eq_skeleton]; unfold cc1__decay_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## Each input window's buffer holds its block at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The arrays as the region finds them; after the body at point `t` each input's buffer at its block and the
    result's at `out1_5` of the input blocks; the invariant is the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole run of @main: a stretch of host operations, the gates region, the decay region, one more host operation.

  The buffer contents at each boundary are a fold from the launch memory: a host stretch applies its operations; a
  region leaves its arrays at what its write-backs leave and every other buffer as it found it.  Every weakly fair
  execution terminates, nothing faulting, and the final memory holds every unscoped buffer at the last boundary's
  contents — from which both the unchanged arguments and the results' values are read.
-/
import proofs.«115463_j39719857553628_2_alg».proof.Proof.BitsRegion0
import proofs.«115463_j39719857553628_2_alg».proof.Proof.BitsRegion1
import proofs.«115463_j39719857553628_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first host stretch (the gates region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the gates region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the decay region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last host stretch: the end. -/
abbrev W4 : Dev nD → Valuation τ sig (Elt F) := fun c => StableHlo.after hostOps2 (W3 m c)

/-! ## The proof data family and the thread state -/

abbrev adm' : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The gates region over the thread state: entered from every unscoped buffer at `W1`, left at `W2`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decay region over the thread state: entered from every unscoped buffer at `W2`, left at `W3`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and the final memory holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## No item writes an argument -/

/-- A buffer no host operation writes and no region holds as a result's array reaches the end as launched. -/
theorem W4_of_arg (c : Dev nD) (b : Ref sig .tc) (h0 : b ∉ hostOps0_W) (h2 : b ∉ hostOps2_W)
    (hw0 : ∀ w, Pipeline.arrRef spec0 w = b → (cfg0.win w).isOut = false)
    (hw1 : ∀ w, Pipeline.arrRef spec1 w = b → (cfg1.win w).isOut = false) :
    W4 m c (Proc.devRef .tc b) = m ((c : Thread nD τ).loc b) := by
  have e4 : W4 m c (Proc.devRef .tc b) = W3 m c (Proc.devRef .tc b) :=
    StableHlo.after_of_writes_sub hostOps2 _ hostOps2_writes h2
  have e1 : W1 m c (Proc.devRef .tc b) = W0 m c (Proc.devRef .tc b) :=
    StableHlo.after_of_writes_sub hostOps0 _ hostOps0_writes h0
  have e3 : W3 m c (Proc.devRef .tc b) = W2 m c (Proc.devRef .tc b) := by
    by_cases hx : ∃ w, Pipeline.arrRef spec1 w = b
    · obtain ⟨w, rfl⟩ := hx
      exact (W3_arr m c w).trans (((dat1 (V2 m) c).arrAt_in w (hw1 w rfl) _).trans (A_eq1 (V2 m) c w))
    · exact W3_of_ne m c b fun w e => hx ⟨w, e⟩
  have e2 : W2 m c (Proc.devRef .tc b) = W1 m c (Proc.devRef .tc b) := by
    by_cases hx : ∃ w, Pipeline.arrRef spec0 w = b
    · obtain ⟨w, rfl⟩ := hx
      exact (W2_arr m c w).trans (((dat0 (V1 m) c).arrAt_in w (hw0 w rfl) _).trans (A_eq0 (V1 m) c w))
    · exact W2_of_ne m c b fun w e => hx ⟨w, e⟩
  exact e4.trans (e3.trans (e2.trans (e1.trans rfl)))

end Cert.Kernel.Hand

end
-- ==== Proof.IdealRegion0.lean ====
/-
  The gates kernel's region, at the buffer contents `V` the region is entered with.

  The grid has 32 points; point `t` works on rows `256 t … 256 t + 255` of the four row operands and of the three
  results, and on the whole of the two stacked weight halves (six gates of 1024 rows each) and of the stacked bias row
  (their block index never moves, so they are staged once).  The body loads the row blocks whole and, per gate `g`, rows
  `1024 g … 1024 g + 1023` of each weight half and columns `1024 g … 1024 g + 1023` of the bias row; it stores three
  whole result blocks, each one value of those loads (`out0_7`, `out0_8`, `out0_9`).
-/
import proofs.«115463_j39719857553628_2_alg».proof.Proof.Gen.KernelIdeal.Launch
import proofs.«115463_j39719857553628_2_alg».proof.Proof.Gen.KernelIdeal.Skeleton
import proofs.«115463_j39719857553628_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's rectangles -/

/-- A whole row block. -/
abbrev rRow0 : Rect S256x1024 := Rect.unit (s := S256x1024) ![0, 0] S256x1024.size inb_S256x1024_S256x1024_0_0
/-- Gate `g`'s 1024 rows of a stacked weight half. -/
abbrev rW0 : Rect S6144x1024 := Rect.unit (s := S6144x1024) ![0, 0] S1024x1024.size inb_S6144x1024_S1024x1024_0_0
abbrev rW1 : Rect S6144x1024 := Rect.unit (s := S6144x1024) ![1024, 0] S1024x1024.size inb_S6144x1024_S1024x1024_1024_0
abbrev rW2 : Rect S6144x1024 := Rect.unit (s := S6144x1024) ![2048, 0] S1024x1024.size inb_S6144x1024_S1024x1024_2048_0
abbrev rW3 : Rect S6144x1024 := Rect.unit (s := S6144x1024) ![3072, 0] S1024x1024.size inb_S6144x1024_S1024x1024_3072_0
abbrev rW4 : Rect S6144x1024 := Rect.unit (s := S6144x1024) ![4096, 0] S1024x1024.size inb_S6144x1024_S1024x1024_4096_0
abbrev rW5 : Rect S6144x1024 := Rect.unit (s := S6144x1024) ![5120, 0] S1024x1024.size inb_S6144x1024_S1024x1024_5120_0
/-- Gate `g`'s 1024 columns of the stacked bias row. -/
abbrev rB0 : Rect S1x6144 := Rect.unit (s := S1x6144) ![0, 0] S1x1024.size inb_S1x6144_S1x1024_0_0
abbrev rB1 : Rect S1x6144 := Rect.unit (s := S1x6144) ![0, 1024] S1x1024.size inb_S1x6144_S1x1024_0_1024
abbrev rB2 : Rect S1x6144 := Rect.unit (s := S1x6144) ![0, 2048] S1x1024.size inb_S1x6144_S1x1024_0_2048
abbrev rB3 : Rect S1x6144 := Rect.unit (s := S1x6144) ![0, 3072] S1x1024.size inb_S1x6144_S1x1024_0_3072
abbrev rB4 : Rect S1x6144 := Rect.unit (s := S1x6144) ![0, 4096] S1x1024.size inb_S1x6144_S1x1024_0_4096
abbrev rB5 : Rect S1x6144 := Rect.unit (s := S1x6144) ![0, 5120] S1x1024.size inb_S1x6144_S1x1024_0_5120

/-! ## What the body leaves in each result's buffer -/

/-- The candidate `tanh` value (gate 5), shared by both cell updates. -/
def cand0 (x0 x1 : Vec F S256x1024 .f32) (x4 x5 : Vec F S6144x1024 .bf16) (x6 : Vec F S1x6144 .f32) : FVec F S256x1024 .f32 :=
  k0_pay5 (View.ld x0 rRow0) (View.ld x1 rRow0) (View.ld x4 rW5) (View.ld x5 rW5) (View.ld x6 rB5)

/-- The first result's staging buffer after the body (the cell update with gates 0 and 1). -/
def out0_7 (x0 x1 x2 : Vec F S256x1024 .f32) (x4 x5 : Vec F S6144x1024 .bf16) (x6 : Vec F S1x6144 .f32) : Vec F S256x1024 .f32 :=
  View.canon [⟨rRow0, k0_pay9 (k0_pay4 (View.ld x1 rRow0)) (cand0 x0 x1 x4 x5 x6)
    (k0_pay6 (View.ld x0 rRow0) (View.ld x1 rRow0) (View.ld x4 rW0) (View.ld x5 rW0) (View.ld x6 rB0))
    (k0_pay7 (View.ld x5 rW1)) (k0_pay8 (View.ld x0 rRow0) (View.ld x4 rW1)) (constant S256x1024 .f32 0x00000000#32)
    (View.ld x6 rB1) (View.ld x2 rRow0)⟩]

/-- The second result's (the cell update with gates 3 and 4). -/
def out0_8 (x0 x1 x3 : Vec F S256x1024 .f32) (x4 x5 : Vec F S6144x1024 .bf16) (x6 : Vec F S1x6144 .f32) : Vec F S256x1024 .f32 :=
  View.canon [⟨rRow0, k0_pay1 (cand0 x0 x1 x4 x5 x6)
    (k0_pay10 (k0_pay3 (View.ld x0 rRow0)) (k0_pay4 (View.ld x1 rRow0)) (View.ld x4 rW3) (View.ld x5 rW3) (View.ld x6 rB3))
    (k0_pay11 (k0_pay3 (View.ld x0 rRow0)) (k0_pay4 (View.ld x1 rRow0)) (View.ld x4 rW4) (View.ld x5 rW4) (View.ld x6 rB4))
    (View.ld x3 rRow0)⟩]

/-- The third result's (gate 2). -/
def out0_9 (x0 x1 : Vec F S256x1024 .f32) (x4 x5 : Vec F S6144x1024 .bf16) (x6 : Vec F S1x6144 .f32) : Vec F S256x1024 .f32 :=
  View.canon [⟨rRow0, k0_pay2 (k0_pay3 (View.ld x0 rRow0)) (k0_pay4 (View.ld x1 rRow0)) (View.ld x4 rW2) (View.ld x5 rW2) (View.ld x6 rB2)⟩]

/-- A store of a whole row block covers it. -/
theorem cover0 (p0 : Vec F S256x1024 .f32) (y : S256x1024.Idx) :
    ∃ pc ∈ ([⟨rRow0, p0⟩] : List (View.Piece (Elt F) S256x1024 .f32)), y ∈ pc.1.set :=
  View.cover_of_tiled [⟨rRow0, p0⟩] S256x1024.size (by rfl) y

/-! ## The body's triple -/

set_option maxHeartbeats 4000000 in
/-- The body on whole staging memrefs, the inputs' at contents `x·` and the results' at anything, runs to the
    continuation holding the inputs' as they were and each result's at its `out0_·` of them. -/
theorem sound_kernel0 (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S6144x1024 .bf16) (harg5 : arg5.IsWhole) (arg6 : Memref sig .tc .vmem S6144x1024 .bf16) (harg6 : arg6.IsWhole)
    (arg7 : Memref sig .tc .vmem S1x6144 .f32) (harg7 : arg7.IsWhole) (arg8 : Memref sig .tc .vmem S256x1024 .f32) (harg8 : arg8.IsWhole)
    (arg9 : Memref sig .tc .vmem S256x1024 .f32) (harg9 : arg9.IsWhole) (arg10 : Memref sig .tc .vmem S256x1024 .f32) (harg10 : arg10.IsWhole)
    (x0 x1 x2 x3 : Vec F S256x1024 .f32) (x4 x5 : Vec F S6144x1024 .bf16) (x6 : Vec F S1x6144 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out0_7 x0 x1 x2 x4 x5 x6)
            ∗ owns (c : Thread nD τ) arg9 fullShare (out0_8 x0 x1 x3 x4 x5 x6)
            ∗ owns (c : Thread nD τ) arg10 fullShare (out0_9 x0 x1 x4 x5 x6)) -∗ K ⟨⟩))
      ⊢ wp frame (wpE (defs₀ (F := F)) Variants.none c none) E
          (cc0__gates_kernel i arg1 harg1 arg2 harg2 arg3 harg3 arg4 harg4 arg5 harg5 arg6 harg6 arg7 harg7 arg8 harg8 arg9 harg9 arg10 harg10) K := by
  simp only [cc0__gates_kernel_eq_skeleton]; unfold cc0__gates_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## Each input window's buffer holds its block at every point -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The arrays as the region finds them; after the body at point `t` each input's buffer at its block and each
    result's at its `out0_·` of the input blocks; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 4 t) (iblk0 V c 5 t) (iblk0 V c 6 t)
    | ⟨8, _⟩ => out0_8 (iblk0 V c 0 t) (iblk0 V c 1 t) (iblk0 V c 3 t) (iblk0 V c 4 t) (iblk0 V c 5 t) (iblk0 V c 6 t)
    | ⟨9, _⟩ => out0_9 (iblk0 V c 0 t) (iblk0 V c 1 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 4 t) (iblk0 V c 5 t) (iblk0 V c 6 t) := by dsimp only [dat0]
theorem after0_8 (c : Dev nD) (t : Fin cfg0.N) : (dat0 V c).after 8 t
    = out0_8 (iblk0 V c 0 t) (iblk0 V c 1 t) (iblk0 V c 3 t) (iblk0 V c 4 t) (iblk0 V c 5 t) (iblk0 V c 6 t) := by dsimp only [dat0]
theorem after0_9 (c : Dev nD) (t : Fin cfg0.N) : (dat0 V c).after 9 t
    = out0_9 (iblk0 V c 0 t) (iblk0 V c 1 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t)
    (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
/-
  The decay kernel's region, at the buffer contents `V` the region is entered with.

  The grid has 32 points; point `t` works on rows `256 t … 256 t + 255` of the two row operands and of the result, and
  on the whole of the two weight halves and of the bias row (their block index never moves, so they are staged once).
  The body loads its five operand blocks whole, computes one 256 × 4096 value from them and stores it over the whole
  result block: the result's staging buffer after the body is that value of the five input blocks (`out1_5`).
-/
import proofs.«115463_j39719857553628_2_alg».proof.Proof.Gen.KernelIdeal.Launch
import proofs.«115463_j39719857553628_2_alg».proof.Proof.Gen.KernelIdeal.Skeleton
import proofs.«115463_j39719857553628_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's rectangles: every access is a whole block -/

abbrev rRow1 : Rect S256x1024 := Rect.unit (s := S256x1024) ![0, 0] S256x1024.size inb_S256x1024_S256x1024_0_0
abbrev rWt1 : Rect S4096x1024 := Rect.unit (s := S4096x1024) ![0, 0] S4096x1024.size inb_S4096x1024_S4096x1024_0_0
abbrev rBias1 : Rect S1x4096 := Rect.unit (s := S1x4096) ![0, 0] S1x4096.size inb_S1x4096_S1x4096_0_0
abbrev rOut1 : Rect S256x4096 := Rect.unit (s := S256x4096) ![0, 0] S256x4096.size inb_S256x4096_S256x4096_0_0

/-! ## What the body leaves in the result's buffer -/

/-- The result's staging buffer after the body, from the five input blocks: its one store, of the payload of the
    five whole-block loads. -/
def out1_5 (x0 x1 : Vec F S256x1024 .f32) (x2 x3 : Vec F S4096x1024 .bf16) (x4 : Vec F S1x4096 .f32) : Vec F S256x4096 .f32 :=
  View.canon [⟨rOut1, k1_pay1 (View.ld x0 rRow1) (View.ld x1 rRow1) (View.ld x2 rWt1) (View.ld x3 rWt1) (View.ld x4 rBias1)⟩]

/-- The one store is of the whole block, so it covers it. -/
theorem cover1_5 (p0 : Vec F S256x4096 .f32) (y : S256x4096.Idx) :
    ∃ pc ∈ ([⟨rOut1, p0⟩] : List (View.Piece (Elt F) S256x4096 .f32)), y ∈ pc.1.set :=
  View.cover_of_tiled [⟨rOut1, p0⟩] S256x4096.size (by rfl) y

/-! ## The body's triple -/

set_option maxHeartbeats 1000000 in
/-- The body on whole staging memrefs, the inputs' at contents `x·` and the result's at anything, runs to the
    continuation holding the inputs' as they were and the result's at `out1_5` of them. -/
theorem sound_kernel1 (c : Dev nD) (E : Set ℕ) (i : grid1.Coords)
    (arg1 : Memref sig .tc .vmem S256x1024 .f32) (harg1 : arg1.IsWhole) (arg2 : Memref sig .tc .vmem S256x1024 .f32) (harg2 : arg2.IsWhole)
    (arg3 : Memref sig .tc .vmem S4096x1024 .bf16) (harg3 : arg3.IsWhole) (arg4 : Memref sig .tc .vmem S4096x1024 .bf16) (harg4 : arg4.IsWhole)
    (arg5 : Memref sig .tc .vmem S1x4096 .f32) (harg5 : arg5.IsWhole) (arg6 : Memref sig .tc .vmem S256x4096 .f32) (harg6 : arg6.IsWhole)
    (x0 x1 : Vec F S256x1024 .f32) (x2 x3 : Vec F S4096x1024 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__decay_kernel i arg1 harg1 arg2 harg2 arg3 harg3 arg4 harg4 arg5 harg5 arg6 harg6) K := by
  simp only [cc1__decay_kernel_eq_skeleton]; unfold cc1__decay_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## Each input window's buffer holds its block at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The arrays as the region finds them; after the body at point `t` each input's buffer at its block and the
    result's at `out1_5` of the input blocks; the invariant is the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The whole run of @main: a stretch of host operations, the gates region, the decay region, one more host operation.

  The buffer contents at each boundary are a fold from the launch memory: a host stretch applies its operations; a
  region leaves its arrays at what its write-backs leave and every other buffer as it found it.  Every weakly fair
  execution terminates, nothing faulting, and the final memory holds every unscoped buffer at the last boundary's
  contents — from which both the unchanged arguments and the results' values are read.
-/
import proofs.«115463_j39719857553628_2_alg».proof.Proof.IdealRegion0
import proofs.«115463_j39719857553628_2_alg».proof.Proof.IdealRegion1
import proofs.«115463_j39719857553628_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first host stretch (the gates region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the gates region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the decay region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last host stretch: the end. -/
abbrev W4 : Dev nD → Valuation τ sig (Elt F) := fun c => StableHlo.after hostOps2 (W3 m c)

/-! ## The proof data family and the thread state -/

abbrev adm' : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The gates region over the thread state: entered from every unscoped buffer at `W1`, left at `W2`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decay region over the thread state: entered from every unscoped buffer at `W2`, left at `W3`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and the final memory holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## No item writes an argument -/

/-- A buffer no host operation writes and no region holds as a result's array reaches the end as launched. -/
theorem W4_of_arg (c : Dev nD) (b : Ref sig .tc) (h0 : b ∉ hostOps0_W) (h2 : b ∉ hostOps2_W)
    (hw0 : ∀ w, Pipeline.arrRef spec0 w = b → (cfg0.win w).isOut = false)
    (hw1 : ∀ w, Pipeline.arrRef spec1 w = b → (cfg1.win w).isOut = false) :
    W4 m c (Proc.devRef .tc b) = m ((c : Thread nD τ).loc b) := by
  have e4 : W4 m c (Proc.devRef .tc b) = W3 m c (Proc.devRef .tc b) :=
    StableHlo.after_of_writes_sub hostOps2 _ hostOps2_writes h2
  have e1 : W1 m c (Proc.devRef .tc b) = W0 m c (Proc.devRef .tc b) :=
    StableHlo.after_of_writes_sub hostOps0 _ hostOps0_writes h0
  have e3 : W3 m c (Proc.devRef .tc b) = W2 m c (Proc.devRef .tc b) := by
    by_cases hx : ∃ w, Pipeline.arrRef spec1 w = b
    · obtain ⟨w, rfl⟩ := hx
      exact (W3_arr m c w).trans (((dat1 (V2 m) c).arrAt_in w (hw1 w rfl) _).trans (A_eq1 (V2 m) c w))
    · exact W3_of_ne m c b fun w e => hx ⟨w, e⟩
  have e2 : W2 m c (Proc.devRef .tc b) = W1 m c (Proc.devRef .tc b) := by
    by_cases hx : ∃ w, Pipeline.arrRef spec0 w = b
    · obtain ⟨w, rfl⟩ := hx
      exact (W2_arr m c w).trans (((dat0 (V1 m) c).arrAt_in w (hw0 w rfl) _).trans (A_eq0 (V1 m) c w))
    · exact W2_of_ne m c b fun w e => hx ⟨w, e⟩
  exact e4.trans (e3.trans (e2.trans (e1.trans rfl)))

end Cert.KernelIdeal.Hand

end
-- ==== Proof.Frames.lean ====
/-
  The three frame claims: each program runs to the end, faults nowhere, and leaves its eighteen argument arrays as
  launched.  For the two kernel programs no host operation writes an argument and no region holds one as a result's
  array, so the last boundary's contents at an argument are the launch memory's; the reference's run states it directly.
-/
import proofs.«115463_j39719857553628_2_alg».proof.Defs
import proofs.«115463_j39719857553628_2_alg».proof.Proof.BitsRun
import proofs.«115463_j39719857553628_2_alg».proof.Proof.IdealRun
import proofs.«115463_j39719857553628_2_alg».proof.Proof.Gen.ReferenceIdeal.Run
import proofs.«115463_j39719857553628_2_alg».proof.Proof.Gen.Pre_finite_inputs

noncomputable section

namespace Cert.Proof.Frames

open Idealize.ShloMosaic Idealize.ShloMosaic.TcCoe Idealize.SL.Sem

theorem frame_k : Cert.frame_Kernel := fun m ρ _ =>
  (θ_run (Cert.Kernel.defs (F := Bits)) _ _).mono (fun r h c => ⟨
      (h c _ (Cert.Kernel.Hand.mem_uc Cert.Kernel.main_arg0 (by decide))).trans (Cert.Kernel.Hand.W4_of_arg m c Cert.Kernel.main_arg0 (by decide) (by decide) (by decide) (by decide)),
      (h c _ (Cert.Kernel.Hand.mem_uc Cert.Kernel.main_arg1 (by decide))).trans (Cert.Kernel.Hand.W4_of_arg m c Cert.Kernel.main_arg1 (by decide) (by decide) (by decide) (by decide)),
      (h c _ (Cert.Kernel.Hand.mem_uc Cert.Kernel.main_arg2 (by decide))).trans (Cert.Kernel.Hand.W4_of_arg m c Cert.Kernel.main_arg2 (by decide) (by decide) (by decide) (by decide)),
      (h c _ (Cert.Kernel.Hand.mem_uc Cert.Kernel.main_arg3 (by decide))).trans (Cert.Kernel.Hand.W4_of_arg m c Cert.Kernel.main_arg3 (by decide) (by decide) (by decide) (by decide)),
      (h c _ (Cert.Kernel.Hand.mem_uc Cert.Kernel.main_arg4 (by decide))).trans (Cert.Kernel.Hand.W4_of_arg m c Cert.Kernel.main_arg4 (by decide) (by decide) (by decide) (by decide)),
      (h c _ (Cert.Kernel.Hand.mem_uc Cert.Kernel.main_arg5 (by decide))).trans (Cert.Kernel.Hand.W4_of_arg m c Cert.Kernel.main_arg5 (by decide) (by decide) (by decide) (by decide)),
      (h c _ (Cert.Kernel.Hand.mem_uc Cert.Kernel.main_arg6 (by decide))).trans (Cert.Kernel.Hand.W4_of_arg m c Cert.Kernel.main_arg6 (by decide) (by decide) (by decide) (by decide)),
      (h c _ (Cert.Kernel.Hand.mem_uc Cert.Kernel.main_arg7 (by decide))).trans (Cert.Kernel.Hand.W4_of_arg m c Cert.Kernel.main_arg7 (by decide) (by decide) (by decide) (by decide)),
      (h c _ (Cert.Kernel.Hand.mem_uc Cert.Kernel.main_arg8 (by decide))).trans (Cert.Kernel.Hand.W4_of_arg m c Cert.Kernel.main_arg8 (by decide) (by decide) (by decide) (by decide)),
      (h c _ (Cert.Kernel.Hand.mem_uc Cert.Kernel.main_arg9 (by decide))).trans (Cert.Kernel.Hand.W4_of_arg m c Cert.Kernel.main_arg9 (by decide) (by decide) (by decide) (by decide)),
      (h c _ (Cert.Kernel.Hand.mem_uc Cert.Kernel.main_arg10 (by decide))).trans (Cert.Kernel.Hand.W4_of_arg m c Cert.Kernel.main_arg10 (by decide) (by decide) (by decide) (by decide)),
      (h c _ (Cert.Kernel.Hand.mem_uc Cert.Kernel.main_arg11 (by decide))).trans (Cert.Kernel.Hand.W4_of_arg m c Cert.Kernel.main_arg11 (by decide) (by decide) (by decide) (by decide)),
      (h c _ (Cert.Kernel.Hand.mem_uc Cert.Kernel.main_arg12 (by decide))).trans (Cert.Kernel.Hand.W4_of_arg m c Cert.Kernel.main_arg12 (by decide) (by decide) (by decide) (by decide)),
      (h c _ (Cert.Kernel.Hand.mem_uc Cert.Kernel.main_arg13 (by decide))).trans (Cert.Kernel.Hand.W4_of_arg m c Cert.Kernel.main_arg13 (by decide) (by decide) (by decide) (by decide)),
      (h c _ (Cert.Kernel.Hand.mem_uc Cert.Kernel.main_arg14 (by decide))).trans (Cert.Kernel.Hand.W4_of_arg m c Cert.Kernel.main_arg14 (by decide) (by decide) (by decide) (by decide)),
      (h c _ (Cert.Kernel.Hand.mem_uc Cert.Kernel.main_arg15 (by decide))).trans (Cert.Kernel.Hand.W4_of_arg m c Cert.Kernel.main_arg15 (by decide) (by decide) (by decide) (by decide)),
      (h c _ (Cert.Kernel.Hand.mem_uc Cert.Kernel.main_arg16 (by decide))).trans (Cert.Kernel.Hand.W4_of_arg m c Cert.Kernel.main_arg16 (by decide) (by decide) (by decide) (by decide)),
      (h c _ (Cert.Kernel.Hand.mem_uc Cert.Kernel.main_arg17 (by decide))).trans (Cert.Kernel.Hand.W4_of_arg m c Cert.Kernel.main_arg17 (by decide) (by decide) (by decide) (by decide))⟩)
    (Cert.Kernel.Hand.run_all (F := Bits) m ρ)

theorem frame_ki : Cert.frame_KernelIdeal := fun m ρ _ =>
  (θ_run (Cert.KernelIdeal.defs (F := Ideal)) _ _).mono (fun r h c => ⟨
      (h c _ (Cert.KernelIdeal.Hand.mem_uc Cert.KernelIdeal.main_arg0 (by decide))).trans (Cert.KernelIdeal.Hand.W4_of_arg m c Cert.KernelIdeal.main_arg0 (by decide) (by decide) (by decide) (by decide)),
      (h c _ (Cert.KernelIdeal.Hand.mem_uc Cert.KernelIdeal.main_arg1 (by decide))).trans (Cert.KernelIdeal.Hand.W4_of_arg m c Cert.KernelIdeal.main_arg1 (by decide) (by decide) (by decide) (by decide)),
      (h c _ (Cert.KernelIdeal.Hand.mem_uc Cert.KernelIdeal.main_arg2 (by decide))).trans (Cert.KernelIdeal.Hand.W4_of_arg m c Cert.KernelIdeal.main_arg2 (by decide) (by decide) (by decide) (by decide)),
      (h c _ (Cert.KernelIdeal.Hand.mem_uc Cert.KernelIdeal.main_arg3 (by decide))).trans (Cert.KernelIdeal.Hand.W4_of_arg m c Cert.KernelIdeal.main_arg3 (by decide) (by decide) (by decide) (by decide)),
      (h c _ (Cert.KernelIdeal.Hand.mem_uc Cert.KernelIdeal.main_arg4 (by decide))).trans (Cert.KernelIdeal.Hand.W4_of_arg m c Cert.KernelIdeal.main_arg4 (by decide) (by decide) (by decide) (by decide)),
      (h c _ (Cert.KernelIdeal.Hand.mem_uc Cert.KernelIdeal.main_arg5 (by decide))).trans (Cert.KernelIdeal.Hand.W4_of_arg m c Cert.KernelIdeal.main_arg5 (by decide) (by decide) (by decide) (by decide)),
      (h c _ (Cert.KernelIdeal.Hand.mem_uc Cert.KernelIdeal.main_arg6 (by decide))).trans (Cert.KernelIdeal.Hand.W4_of_arg m c Cert.KernelIdeal.main_arg6 (by decide) (by decide) (by decide) (by decide)),
      (h c _ (Cert.KernelIdeal.Hand.mem_uc Cert.KernelIdeal.main_arg7 (by decide))).trans (Cert.KernelIdeal.Hand.W4_of_arg m c Cert.KernelIdeal.main_arg7 (by decide) (by decide) (by decide) (by decide)),
      (h c _ (Cert.KernelIdeal.Hand.mem_uc Cert.KernelIdeal.main_arg8 (by decide))).trans (Cert.KernelIdeal.Hand.W4_of_arg m c Cert.KernelIdeal.main_arg8 (by decide) (by decide) (by decide) (by decide)),
      (h c _ (Cert.KernelIdeal.Hand.mem_uc Cert.KernelIdeal.main_arg9 (by decide))).trans (Cert.KernelIdeal.Hand.W4_of_arg m c Cert.KernelIdeal.main_arg9 (by decide) (by decide) (by decide) (by decide)),
      (h c _ (Cert.KernelIdeal.Hand.mem_uc Cert.KernelIdeal.main_arg10 (by decide))).trans (Cert.KernelIdeal.Hand.W4_of_arg m c Cert.KernelIdeal.main_arg10 (by decide) (by decide) (by decide) (by decide)),
      (h c _ (Cert.KernelIdeal.Hand.mem_uc Cert.KernelIdeal.main_arg11 (by decide))).trans (Cert.KernelIdeal.Hand.W4_of_arg m c Cert.KernelIdeal.main_arg11 (by decide) (by decide) (by decide) (by decide)),
      (h c _ (Cert.KernelIdeal.Hand.mem_uc Cert.KernelIdeal.main_arg12 (by decide))).trans (Cert.KernelIdeal.Hand.W4_of_arg m c Cert.KernelIdeal.main_arg12 (by decide) (by decide) (by decide) (by decide)),
      (h c _ (Cert.KernelIdeal.Hand.mem_uc Cert.KernelIdeal.main_arg13 (by decide))).trans (Cert.KernelIdeal.Hand.W4_of_arg m c Cert.KernelIdeal.main_arg13 (by decide) (by decide) (by decide) (by decide)),
      (h c _ (Cert.KernelIdeal.Hand.mem_uc Cert.KernelIdeal.main_arg14 (by decide))).trans (Cert.KernelIdeal.Hand.W4_of_arg m c Cert.KernelIdeal.main_arg14 (by decide) (by decide) (by decide) (by decide)),
      (h c _ (Cert.KernelIdeal.Hand.mem_uc Cert.KernelIdeal.main_arg15 (by decide))).trans (Cert.KernelIdeal.Hand.W4_of_arg m c Cert.KernelIdeal.main_arg15 (by decide) (by decide) (by decide) (by decide)),
      (h c _ (Cert.KernelIdeal.Hand.mem_uc Cert.KernelIdeal.main_arg16 (by decide))).trans (Cert.KernelIdeal.Hand.W4_of_arg m c Cert.KernelIdeal.main_arg16 (by decide) (by decide) (by decide) (by decide)),
      (h c _ (Cert.KernelIdeal.Hand.mem_uc Cert.KernelIdeal.main_arg17 (by decide))).trans (Cert.KernelIdeal.Hand.W4_of_arg m c Cert.KernelIdeal.main_arg17 (by decide) (by decide) (by decide) (by decide))⟩)
    (Cert.KernelIdeal.Hand.run_all (F := Ideal) m ρ)

theorem frame_r : Cert.frame_ReferenceIdeal := fun m ρ _ =>
  (θ_run Cert.ReferenceIdeal.defs _ _).mono (fun _ h c => (h c).2.2.2.2) (Cert.ReferenceIdeal.Value.run (F := Ideal) m ρ)

end Cert.Proof.Frames

end
-- ==== Proof.Spec.lean ====
/-
  The function both programs compute, entry by entry, on the extended reals.

  A gate's pre-activation at row `i`, column `j` is the row `i` of `x` against the first 1024 columns of row `j` of the
  gate's weight, plus the row `i` of `h` against the last 1024 columns of that row, plus the gate's bias at `j`.  The
  cell update is `σ(forget)·c + σ(input)·tanh(candidate)`; the output gate is `σ(output)`; the decay is a softplus of a
  4096-wide pre-activation, regrouped as 1024 groups of 4.  One whole-row product over 2048 columns splits into those two
  half-row products because a finite sum over `Fin 2048` is the sum of its two halves: no distributivity, so nothing
  here needs the entries to be finite.
-/
import Idealize.ShloMosaic.PureOps.Ideal
import Idealize.ShloMosaic.Lib.ValueIdx

noncomputable section

namespace Cert.Lstm

open Idealize.ShloMosaic Idealize.ShloMosaic.ValueIdx

/-- A batch of 8192 rows of 1024 entries. -/
abbrev Rows : Type := (⟨2, ![8192, 1024]⟩ : Shape).Idx → EReal

/-- The first-half column `k` of a 2048-column weight row. -/
abbrev lo (k : Fin 1024) : Fin 2048 := ⟨k.val, by omega⟩
/-- The second-half column `1024 + k`. -/
abbrev hi (k : Fin 1024) : Fin 2048 := ⟨1024 + k.val, by omega⟩

/-- The pre-activation of column `j` at row `i`, for a weight of `R` rows and 2048 columns and a bias of `R` entries. -/
def pre {R : Nat} (x h : Rows) (W : (⟨2, ![R, 2048]⟩ : Shape).Idx → EReal) (b : (⟨1, ![R]⟩ : Shape).Idx → EReal)
    (i : Fin 8192) (j : Fin R) : EReal :=
  ((∑ k : Fin 1024, x (ix2 i k) * W (ix2 j (lo k))) + (∑ k : Fin 1024, h (ix2 i k) * W (ix2 j (hi k)))) + b (ix1 j)

/-- The logistic function `1 / (1 + e⁻ᶻ)` on the extended reals. -/
def sg (z : EReal) : EReal := FloatOps.logistic (F := Ideal) (φ := .f32) z
/-- The hyperbolic tangent on the extended reals. -/
def th (z : EReal) : EReal := FloatOps.tanh (F := Ideal) (φ := .f32) z

/-- The decay's activation `softplus(1·z)/1`, spelt as `max(u,0) + log1p(e^{-|u-0|})` under its not-a-number guard
    (dead on the extended reals: `d ≠ d` never holds), with `u = 1·z`; the words for one and zero are kept as words. -/
def act (z : EReal) : EReal :=
  let one : Ideal .f32 := Scalar.ofBits .f32 0x3F800000#32
  let zero : Ideal .f32 := Scalar.ofBits .f32 0x00000000#32
  let u : Ideal .f32 := FloatOps.mulf one z
  let d : Ideal .f32 := FloatOps.subf u zero
  FloatOps.divf
    (Scalar.select (FloatOps.cmpf .one d d) (FloatOps.addf u zero)
      (FloatOps.addf (FloatOps.maximumf u zero) (FloatOps.log1p (FloatOps.exp (FloatOps.subf zero (FloatOps.absf d))))))
    one

/-- A cell update at `(i, j)`: `σ(forget)·c + σ(input)·tanh(candidate)`. -/
def cellAt (x h c : Rows) (Wi : (⟨2, ![1024, 2048]⟩ : Shape).Idx → EReal) (bi : (⟨1, ![1024]⟩ : Shape).Idx → EReal)
    (Wf : (⟨2, ![1024, 2048]⟩ : Shape).Idx → EReal) (bf : (⟨1, ![1024]⟩ : Shape).Idx → EReal)
    (Wp : (⟨2, ![1024, 2048]⟩ : Shape).Idx → EReal) (bp : (⟨1, ![1024]⟩ : Shape).Idx → EReal) (i : Fin 8192) (j : Fin 1024) : EReal :=
  sg (pre x h Wf bf i j) * c (ix2 i j) + sg (pre x h Wi bi i j) * th (pre x h Wp bp i j)

/-- The output gate at `(i, j)`. -/
def gateAt (x h : Rows) (Wo : (⟨2, ![1024, 2048]⟩ : Shape).Idx → EReal) (bo : (⟨1, ![1024]⟩ : Shape).Idx → EReal)
    (i : Fin 8192) (j : Fin 1024) : EReal := sg (pre x h Wo bo i j)

/-- The decay at `(i, j, l)`: the activation of the 4096-wide pre-activation at column `4 j + l`. -/
def decayAt (x h : Rows) (Wd : (⟨2, ![4096, 2048]⟩ : Shape).Idx → EReal) (bd : (⟨1, ![4096]⟩ : Shape).Idx → EReal)
    (i : Fin 8192) (j : Fin 1024) (l : Fin 4) : EReal := act (pre x h Wd bd i ⟨4 * j.val + l.val, by omega⟩)

/-- A function of two coordinates as an array. -/
def arr2 {a b : Nat} (f : Fin a → Fin b → EReal) : (⟨2, ![a, b]⟩ : Shape).Idx → EReal :=
  fun j => f ⟨(j 0).val, idx2_lt0 j⟩ ⟨(j 1).val, idx2_lt1 j⟩
/-- A function of three coordinates as an array. -/
def arr3 {a b c : Nat} (f : Fin a → Fin b → Fin c → EReal) : (⟨3, ![a, b, c]⟩ : Shape).Idx → EReal :=
  fun j => f ⟨(j 0).val, (j 0).isLt⟩ ⟨(j 1).val, (j 1).isLt⟩ ⟨(j 2).val, (j 2).isLt⟩

theorem arr2_ix2 {a b : Nat} (f : Fin a → Fin b → EReal) (i : Fin a) (j : Fin b) : arr2 f (ix2 i j) = f i j := rfl
theorem arr3_ix3 {a b c : Nat} (f : Fin a → Fin b → Fin c → EReal) (i : Fin a) (j : Fin b) (l : Fin c) :
    arr3 f (ix3 i j l) = f i j l := rfl

/-- A sum over 2048 columns is the sum over the first 1024 plus the sum over the last 1024. -/
theorem sum_halves (f : Fin 2048 → EReal) : ∑ k : Fin 2048, f k = (∑ k : Fin 1024, f (lo k)) + ∑ k : Fin 1024, f (hi k) := by
  have e := Fin.sum_univ_add (a := 1024) (b := 1024) (fun k : Fin (1024 + 1024) => f ⟨k.val, by omega⟩)
  refine (e.trans ?_)
  refine congrArg₂ (· + ·) (Finset.sum_congr rfl fun k _ => congrArg f (Fin.ext rfl)) (Finset.sum_congr rfl fun k _ => congrArg f (Fin.ext rfl))

end Cert.Lstm

end
-- ==== Proof.LibRowsDot.lean ====
/-
  A product of a matrix with the transpose of another, read at an entry.

  A contraction whose dimension numbers say "the second axis of an [A, K] operand against the second axis of a [B, K]
  operand, no batch axis, result [A, B]" reads its left operand at (row of the result, k) and its right operand at
  (column of the result, k), `k` ranging over the one contracted axis.  So the sum over the contraction index of the
  operands' products, at result entry (p, c), is `Σ_{k < K} l (p, k) · r (c, k)`: row p of the left operand against
  row c of the right one; a `tpu.matmul` into the zero splat is exactly that sum at the ideal values.  Generic in A, K, B,
  in the record and in the operands' float formats: the hypotheses are the record's six lists.
-/
import Idealize.ShloMosaic.PureOps.Ideal.Laws
import Idealize.ShloMosaic.Lib.ValueIdx

noncomputable section

namespace Cert.LibRowsDot

open Idealize.ShloMosaic Idealize.ShloMosaic.ValueIdx

/-- The dimension numbers of a product of rows `[A, K] × [B, K] → [A, B]`. -/
structure Rows {A K B : Nat} (D : DotDims ⟨2, ![A, K]⟩ ⟨2, ![B, K]⟩ ⟨2, ![A, B]⟩) : Prop where
  lc : D.lhsContracting = [1]
  rc : D.rhsContracting = [1]
  ln : D.lhsNonContracting = [0]
  rn : D.rhsNonContracting = [0]
  lb : D.lhsBatch = []
  rb : D.rhsBatch = []

variable {A K B : Nat} {D : DotDims ⟨2, ![A, K]⟩ ⟨2, ![B, K]⟩ ⟨2, ![A, B]⟩}

/-- One axis is contracted. -/
theorem Rows.rank (h : Rows D) : D.contr.rank = 1 := by rw [D.rank_contr, h.lc]; rfl

/-- Its extent is `K`. -/
theorem Rows.size (h : Rows D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Rows.lhs0 (h : Rows D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Rows.lhs1 (h : Rows D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the result's column, which is ITS row … -/
theorem Rows.rhs0 (h : Rows D) (j : (⟨2, ![A, B]⟩ : Shape).Idx) (q : D.contr.Idx) : (D.rhsIdx j q 0).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- … and the contraction position. -/
theorem Rows.rhs1 (h : Rows D) (j : (⟨2, ![A, B]⟩ : Shape).Idx) (q : D.contr.Idx) :
    (D.rhsIdx j q 1).val = (q ⟨0, by rw [h.rank]; exact Nat.one_pos⟩).val :=
  D.rhsIdx_val_of_single h.rc j q

/-- The contraction sum at result entry `(p, c)` is `Σ_k l (p, k) · r (c, k)`. -/
theorem Rows.sum_eq (h : Rows D) (l : (⟨2, ![A, K]⟩ : Shape).Idx → EReal) (r : (⟨2, ![B, K]⟩ : Shape).Idx → EReal)
    (p : Fin A) (c : Fin B) :
    ∑ q : D.contr.Idx, l (D.lhsIdx (ix2 p c) q) * r (D.rhsIdx (ix2 p c) q) = ∑ k : Fin K, l (ix2 p k) * r (ix2 c k) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 c k := funext fun a => Fin.ext (by
    match a with
    | ⟨0, _⟩ => exact h.rhs0 _ _
    | ⟨1, _⟩ => exact (h.rhs1 _ _).trans hk)
  rw [el, er]

/-- A `tpu.matmul` of such dimension numbers into the zero accumulator, at the ideal values, read at `(p, c)`. -/
theorem Rows.matmul_zero_apply (h : Rows D) (prec : Option ContractPrecision) {φ₁ φ₂ : FTy}
    (l : FVec Ideal ⟨2, ![A, K]⟩ φ₁) (r : FVec Ideal ⟨2, ![B, K]⟩ φ₂) (p : Fin A) (c : Fin B) :
    FloatOps.matmul D prec l r (constant ⟨2, ![A, B]⟩ .f32 0x00000000#32) (ix2 p c) = ∑ k : Fin K, l (ix2 p k) * r (ix2 c k) :=
  (Ideal.matmul_constant_zero_apply D prec l r (ix2 p c)).trans (h.sum_eq l r p c)

end Cert.LibRowsDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.Payloads.lean ====
/-
  The values the two kernel bodies store and carry, read entry by entry on the extended reals.

  Every gate of the cell is one pre-activation followed by a squashing function.  The pre-activation at row p and
  column q is row p of the first operand against row q of its weight block, plus row p of the second operand against
  row q of the other weight block, plus the entry q of a one-row bias spread over all rows: the products contract
  the second axis of both operands, so each is a plain sum over the 1024 shared positions.  The narrowing of the two
  operands is the identity on the extended reals, a reshape to the same shape is the identity, and the accumulator
  is the zero array, so nothing but the two sums and the bias entry is left.  The cell update is
  σ(forget)·c + σ(input)·tanh(candidate); the decay applies the softplus chain of the specification to a
  4096-wide pre-activation of the same form.
-/
import proofs.«115463_j39719857553628_2_alg».proof.Proof.Gen.KernelIdeal.Skeleton
import proofs.«115463_j39719857553628_2_alg».proof.Proof.Spec
import proofs.«115463_j39719857553628_2_alg».proof.Proof.LibRowsDot
import proofs.«115463_j39719857553628_2_alg».proof.Proof.LibRowLayout
import Idealize.ShloMosaic.Lib.Pipeline.Value
import Idealize.ShloMosaic.Lib.ValueIdx

noncomputable section

namespace Cert.Lstm.Pay

open Idealize.ShloMosaic Idealize.ShloMosaic.ValueIdx Cert.KernelIdeal Cert.KernelIdeal.Gen Cert.Lstm

/-- rows p of a and b against rows q of wa and wb, plus the bias row's entry q -/
def zb {N : Nat} (a b : (⟨2, ![256, 1024]⟩ : Shape).Idx → EReal) (wa wb : (⟨2, ![N, 1024]⟩ : Shape).Idx → EReal)
    (bb : (⟨2, ![1, N]⟩ : Shape).Idx → EReal) (p : Fin 256) (q : Fin N) : EReal :=
  ((∑ k : Fin 1024, a (ix2 p k) * wa (ix2 q k)) + (∑ k : Fin 1024, b (ix2 p k) * wb (ix2 q k))) + bb (ix2 (0 : Fin 1) q)

/-- The 1024-column product contracts the second axis of both operands. -/
theorem rows1024 : Cert.LibRowsDot.Rows dot_S256x1024_S1024x1024_S256x1024_1_1_0_0_n_n := ⟨rfl, rfl, rfl, rfl, rfl, rfl⟩

/-- So does the 4096-column product. -/
theorem rows4096 : Cert.LibRowsDot.Rows dot_S256x1024_S4096x1024_S256x4096_1_1_0_0_n_n := ⟨rfl, rfl, rfl, rfl, rfl, rfl⟩

/-- A pre-activation read at (p, q): two products of rows into the zero array, added, plus the bias row spread over
    the rows, is the two sums over the shared positions plus the bias entry q. -/
theorem pre_apply {N : Nat} (D : DotDims ⟨2, ![256, 1024]⟩ ⟨2, ![N, 1024]⟩ ⟨2, ![256, N]⟩) (hD : Cert.LibRowsDot.Rows D)
    (hw : (⟨2, ![N, 1024]⟩ : Shape).ShapeCasts ⟨2, ![N, 1024]⟩) (hb : (⟨2, ![1, N]⟩ : Shape).ShapeCasts ⟨2, ![1, N]⟩)
    (hbc : (⟨2, ![1, N]⟩ : Shape).Broadcasts ⟨2, ![256, N]⟩)
    (a b : FVec Ideal ⟨2, ![256, 1024]⟩ .bf16) (wa wb : FVec Ideal ⟨2, ![N, 1024]⟩ .bf16) (bb : FVec Ideal ⟨2, ![1, N]⟩ .f32)
    (p : Fin 256) (q : Fin N) :
    addf (addf (matmul D none a (shapeCast ⟨2, ![N, 1024]⟩ wa hw) (constant (F := Ideal) ⟨2, ![256, N]⟩ .f32 0x00000000#32))
               (matmul D none b (shapeCast ⟨2, ![N, 1024]⟩ wb hw) (constant (F := Ideal) ⟨2, ![256, N]⟩ .f32 0x00000000#32)))
         (broadcastTo ⟨2, ![256, N]⟩ (shapeCast ⟨2, ![1, N]⟩ bb hb) hbc) (ix2 p q) = zb a b wa wb bb p q := by
  rw [shapeCast_self wa hw, shapeCast_self wb hw, shapeCast_self bb hb]
  exact congrArg₂ (· + ·)
    (congrArg₂ (· + ·) (hD.matmul_zero_apply none a wa p q) (hD.matmul_zero_apply none b wb p q))
    (Cert.LibRowLayout.broadcastTo_1b_ab_apply bb hbc p q)

/-! ## The first kernel: the carried values -/

/-- Narrowing the first operand changes nothing. -/
theorem pay3_eq (v0 : Vec Ideal S256x1024 .f32) : k0_pay3 (F := Ideal) v0 = v0 := rfl

/-- Narrowing the second operand changes nothing. -/
theorem pay4_eq (v2 : Vec Ideal S256x1024 .f32) : k0_pay4 (F := Ideal) v2 = v2 := rfl

/-- A reshape to the same shape changes nothing. -/
theorem pay7_eq (v30 : Vec Ideal S1024x1024 .bf16) : k0_pay7 (F := Ideal) v30 = v30 :=
  shapeCast_self v30 shapeCasts_S1024x1024_S1024x1024

/-- The candidate: tanh of its pre-activation. -/
theorem pay5_apply (v0 v2 : Vec Ideal S256x1024 .f32) (v4 v6 : Vec Ideal S1024x1024 .bf16) (v11 : Vec Ideal S1x1024 .f32)
    (p : Fin 256) (q : Fin 1024) :
    k0_pay5 (F := Ideal) v0 v2 v4 v6 v11 (ix2 p q) = th (zb v0 v2 v4 v6 v11 p q) :=
  congrArg th (pre_apply dot_S256x1024_S1024x1024_S256x1024_1_1_0_0_n_n rows1024 shapeCasts_S1024x1024_S1024x1024
    shapeCasts_S1x1024_S1x1024 broadcasts_S1x1024_S256x1024 v0 v2 v4 v6 v11 p q)

/-- The input gate: the logistic function of its pre-activation. -/
theorem pay6_apply (v0 v2 : Vec Ideal S256x1024 .f32) (v16 v18 : Vec Ideal S1024x1024 .bf16) (v23 : Vec Ideal S1x1024 .f32)
    (p : Fin 256) (q : Fin 1024) :
    k0_pay6 (F := Ideal) v0 v2 v16 v18 v23 (ix2 p q) = sg (zb v0 v2 v16 v18 v23 p q) :=
  congrArg sg (pre_apply dot_S256x1024_S1024x1024_S256x1024_1_1_0_0_n_n rows1024 shapeCasts_S1024x1024_S1024x1024
    shapeCasts_S1x1024_S1x1024 broadcasts_S1x1024_S256x1024 v0 v2 v16 v18 v23 p q)

/-- The first half of the forget gate's pre-activation: one product of rows. -/
theorem pay8_apply (v0 : Vec Ideal S256x1024 .f32) (v28 : Vec Ideal S1024x1024 .bf16) (p : Fin 256) (q : Fin 1024) :
    k0_pay8 (F := Ideal) v0 v28 (ix2 p q) = ∑ k : Fin 1024, v0 (ix2 p k) * v28 (ix2 q k) :=
  (congrArg (fun w : FVec Ideal S1024x1024 .bf16 =>
      matmul dot_S256x1024_S1024x1024_S256x1024_1_1_0_0_n_n none (φ₁ := .bf16) (φ₂ := .bf16) v0 w
        (constant (F := Ideal) S256x1024 .f32 0x00000000#32) (ix2 p q))
    (shapeCast_self v28 shapeCasts_S1024x1024_S1024x1024)).trans
  (rows1024.matmul_zero_apply none (φ₁ := .bf16) (φ₂ := .bf16) v0 v28 p q)

/-! ## The first kernel: the stored values -/

/-- The new cell: σ(forget)·c + σ(input)·tanh(candidate), the forget gate's pre-activation being the carried first
    half plus the second product of rows plus the bias entry. -/
theorem pay9_apply (v3 : FVec Ideal S256x1024 .bf16) (v15 v27 : FVec Ideal S256x1024 .f32) (v31 : FVec Ideal S1024x1024 .bf16)
    (v32 : FVec Ideal S256x1024 .f32) (v35 : Vec Ideal S1x1024 .f32) (v40 : Vec Ideal S256x1024 .f32) (p : Fin 256) (q : Fin 1024) :
    k0_pay9 (F := Ideal) v3 v15 v27 v31 v32 (constant S256x1024 .f32 0x00000000#32) v35 v40 (ix2 p q)
      = sg (((v32 (ix2 p q)) + (∑ k : Fin 1024, v3 (ix2 p k) * v31 (ix2 q k))) + v35 (ix2 (0 : Fin 1) q)) * v40 (ix2 p q)
        + v27 (ix2 p q) * v15 (ix2 p q) := by
  have e1 : matmul dot_S256x1024_S1024x1024_S256x1024_1_1_0_0_n_n none v3 v31
      (constant (F := Ideal) S256x1024 .f32 0x00000000#32) (ix2 p q) = ∑ k : Fin 1024, v3 (ix2 p k) * v31 (ix2 q k) :=
    rows1024.matmul_zero_apply none v3 v31 p q
  have e2 : broadcastTo S256x1024 (shapeCast S1x1024 v35 shapeCasts_S1x1024_S1x1024) broadcasts_S1x1024_S256x1024 (ix2 p q)
      = v35 (ix2 (0 : Fin 1) q) := by
    rw [shapeCast_self v35 shapeCasts_S1x1024_S1x1024]
    exact Cert.LibRowLayout.broadcastTo_1b_ab_apply v35 broadcasts_S1x1024_S256x1024 p q
  exact congrArg (fun z : EReal => sg z * v40 (ix2 p q) + v27 (ix2 p q) * v15 (ix2 p q))
    (congrArg₂ (fun s t : EReal => (v32 (ix2 p q) + s) + t) e1 e2)

/-- The second cell's input gate: the logistic function of its pre-activation. -/
theorem pay10_apply (v1 v3 : FVec Ideal S256x1024 .bf16) (v45 v47 : Vec Ideal S1024x1024 .bf16) (v52 : Vec Ideal S1x1024 .f32)
    (p : Fin 256) (q : Fin 1024) :
    k0_pay10 (F := Ideal) v1 v3 v45 v47 v52 (ix2 p q) = sg (zb v1 v3 v45 v47 v52 p q) :=
  congrArg sg (pre_apply dot_S256x1024_S1024x1024_S256x1024_1_1_0_0_n_n rows1024 shapeCasts_S1024x1024_S1024x1024
    shapeCasts_S1x1024_S1x1024 broadcasts_S1x1024_S256x1024 v1 v3 v45 v47 v52 p q)

/-- The second cell's forget gate: the logistic function of its pre-activation. -/
theorem pay11_apply (v1 v3 : FVec Ideal S256x1024 .bf16) (v57 v59 : Vec Ideal S1024x1024 .bf16) (v64 : Vec Ideal S1x1024 .f32)
    (p : Fin 256) (q : Fin 1024) :
    k0_pay11 (F := Ideal) v1 v3 v57 v59 v64 (ix2 p q) = sg (zb v1 v3 v57 v59 v64 p q) :=
  congrArg sg (pre_apply dot_S256x1024_S1024x1024_S256x1024_1_1_0_0_n_n rows1024 shapeCasts_S1024x1024_S1024x1024
    shapeCasts_S1x1024_S1x1024 broadcasts_S1x1024_S256x1024 v1 v3 v57 v59 v64 p q)

/-- The output gate: the logistic function of its pre-activation. -/
theorem pay2_apply (v1 v3 : FVec Ideal S256x1024 .bf16) (v74 v76 : Vec Ideal S1024x1024 .bf16) (v81 : Vec Ideal S1x1024 .f32)
    (p : Fin 256) (q : Fin 1024) :
    k0_pay2 (F := Ideal) v1 v3 v74 v76 v81 (ix2 p q) = sg (zb v1 v3 v74 v76 v81 p q) :=
  congrArg sg (pre_apply dot_S256x1024_S1024x1024_S256x1024_1_1_0_0_n_n rows1024 shapeCasts_S1024x1024_S1024x1024
    shapeCasts_S1x1024_S1x1024 broadcasts_S1x1024_S256x1024 v1 v3 v74 v76 v81 p q)

/-- The second cell: σ(its forget gate)·c̄ + σ(its input gate)·tanh(candidate), over the gates' values already read. -/
theorem pay1_apply (v15 v56 v68 : FVec Ideal S256x1024 .f32) (v69 : Vec Ideal S256x1024 .f32) (p : Fin 256) (q : Fin 1024) :
    k0_pay1 (F := Ideal) v15 v56 v68 v69 (ix2 p q) = v68 (ix2 p q) * v69 (ix2 p q) + v56 (ix2 p q) * v15 (ix2 p q) := rfl

/-! ## The second kernel -/

/-- The decay: the softplus chain of the 4096-wide pre-activation. -/
theorem k1_apply (v0 v2 : Vec Ideal S256x1024 .f32) (v4 v7 : Vec Ideal S4096x1024 .bf16) (v11 : Vec Ideal S1x4096 .f32)
    (p : Fin 256) (q : Fin 4096) :
    k1_pay1 (F := Ideal) v0 v2 v4 v7 v11 (ix2 p q) = act (zb v0 v2 v4 v7 v11 p q) :=
  congrArg act (pre_apply dot_S256x1024_S4096x1024_S256x4096_1_1_0_0_n_n rows4096 shapeCasts_S4096x1024_S4096x1024
    shapeCasts_S1x4096_S1x4096 broadcasts_S1x4096_S256x4096 v0 v2 v4 v7 v11 p q)

end Cert.Lstm.Pay

end
-- ==== Proof.ArrAt.lean ====
/-
  Reading an array given by a function of its coordinates at an index whose coordinates are known as numbers.
-/
import proofs.«115463_j39719857553628_2_alg».proof.Proof.Spec

noncomputable section

namespace Cert.Lstm

open Idealize.ShloMosaic Idealize.ShloMosaic.ValueIdx

theorem arr2_at {a b : Nat} (f : Fin a → Fin b → EReal) (j : (⟨2, ![a, b]⟩ : Shape).Idx) (r : Fin a) (s : Fin b)
    (h0 : (j 0).val = r.val) (h1 : (j 1).val = s.val) : arr2 f j = f r s := by
  unfold arr2
  exact congrArg₂ f (Fin.ext h0) (Fin.ext h1)

theorem arr3_at {a b c : Nat} (f : Fin a → Fin b → Fin c → EReal) (j : (⟨3, ![a, b, c]⟩ : Shape).Idx) (r : Fin a) (s : Fin b) (u : Fin c)
    (h0 : (j 0).val = r.val) (h1 : (j 1).val = s.val) (h2 : (j 2).val = u.val) : arr3 f j = f r s u := by
  unfold arr3
  have e0 : (⟨(j 0).val, (j 0).isLt⟩ : Fin a) = r := Fin.ext h0
  have e1 : (⟨(j 1).val, (j 1).isLt⟩ : Fin b) = s := Fin.ext h1
  have e2 : (⟨(j 2).val, (j 2).isLt⟩ : Fin c) = u := Fin.ext h2
  rw [e0, e1, e2]

end Cert.Lstm

end
-- ==== Proof.IdealBlocks0.lean ====
/-
  The gates region's three result arrays after the run, as functions of the arrays the region is entered with.

  Point `t` writes back rows `256 t … 256 t + 255` of each result.  Gate `g`'s pre-activation at `(i, j)` is row `i` of
  `x` against row `1024 g + j` of the first stacked weight half, plus row `i` of `h` against that row of the second, plus
  the stacked bias row's entry `1024 g + j`.  The cell update is `σ(gate 1)·c + σ(gate 0)·tanh(gate 5)`, the second one
  the same with gates 4 and 3, the third result `σ(gate 2)`.  The 32 blocks tile the 8192 rows.
-/
import proofs.«115463_j39719857553628_2_alg».proof.Proof.IdealRegion0
import proofs.«115463_j39719857553628_2_alg».proof.Proof.Payloads
import proofs.«115463_j39719857553628_2_alg».proof.Proof.ArrAt
import Idealize.ShloMosaic.Lib.Pipeline.Value

set_option maxRecDepth 16384

noncomputable section

namespace Cert.KernelIdeal.Hand

open Cert.KernelIdeal Cert.KernelIdeal.Gen Cert.Lstm Cert.Lstm.Pay
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- Row `1024 g + j` of a six-gate stack. -/
abbrev srow (g : Fin 6) (j : Fin 1024) : Fin 6144 := ⟨1024 * g.val + j.val, by have := g.isLt; have := j.isLt; omega⟩

/-- The region-entry arrays the gates kernel reads, as functions of an index. -/
def gX (c : Dev nD) : S8192x1024.Idx → EReal := V c main_arg0
def gH (c : Dev nD) : S8192x1024.Idx → EReal := V c main_arg1
def gC (c : Dev nD) : S8192x1024.Idx → EReal := V c main_arg2
def gCb (c : Dev nD) : S8192x1024.Idx → EReal := V c main_arg3
def gWx (c : Dev nD) : S6144x1024.Idx → EReal := V c main_v3
def gWh (c : Dev nD) : S6144x1024.Idx → EReal := V c main_v5
def gB (c : Dev nD) : S1x6144.Idx → EReal := V c main_v6

/-- Gate `g`'s pre-activation at row `i`, column `j`, off the region-entry arrays. -/
def gz (c : Dev nD) (g : Fin 6) (i : Fin 8192) (j : Fin 1024) : EReal :=
  ((∑ k : Fin 1024, gX V c (ix2 i k) * gWx V c (ix2 (srow g j) k))
      + (∑ k : Fin 1024, gH V c (ix2 i k) * gWh V c (ix2 (srow g j) k)))
    + gB V c (ix2 (0 : Fin 1) (srow g j))

def cellEntry (c : Dev nD) (i : Fin 8192) (j : Fin 1024) : EReal :=
  sg (gz V c 1 i j) * gC V c (ix2 i j) + sg (gz V c 0 i j) * th (gz V c 5 i j)
def cellBarEntry (c : Dev nD) (i : Fin 8192) (j : Fin 1024) : EReal :=
  sg (gz V c 4 i j) * gCb V c (ix2 i j) + sg (gz V c 3 i j) * th (gz V c 5 i j)
def goEntry (c : Dev nD) (i : Fin 8192) (j : Fin 1024) : EReal := sg (gz V c 2 i j)

def cellArr (c : Dev nD) : S8192x1024.Idx → EReal := arr2 (cellEntry V c)
def cellBarArr (c : Dev nD) : S8192x1024.Idx → EReal := arr2 (cellBarEntry V c)
def goArr (c : Dev nD) : S8192x1024.Idx → EReal := arr2 (goEntry V c)

/-- The printed index maps, decided over the grid: every row window (the four operands' and the three results') has
    block index `(the first result's, 0)`; the stacked weights and bias stay at block `(0, 0)`. -/
theorem idx_facts0 : ∀ t : Fin cfg0.N,
    (win0_0.index t (0 : Fin 2) = win0_7.index t (0 : Fin 2) ∧ win0_0.index t (1 : Fin 2) = 0)
    ∧ (win0_1.index t (0 : Fin 2) = win0_7.index t (0 : Fin 2) ∧ win0_1.index t (1 : Fin 2) = 0)
    ∧ (win0_2.index t (0 : Fin 2) = win0_7.index t (0 : Fin 2) ∧ win0_2.index t (1 : Fin 2) = 0)
    ∧ (win0_3.index t (0 : Fin 2) = win0_7.index t (0 : Fin 2) ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_8.index t (0 : Fin 2) = win0_7.index t (0 : Fin 2) ∧ win0_8.index t (1 : Fin 2) = 0)
    ∧ (win0_9.index t (0 : Fin 2) = win0_7.index t (0 : Fin 2) ∧ win0_9.index t (1 : Fin 2) = 0)
    ∧ win0_7.index t (1 : Fin 2) = 0 ∧ win0_7.index t (0 : Fin 2) ≤ 31 :=
  (by decide +kernel : ∀ t : Fin grid0.N, _)

theorem idx_onto0 : ∀ q0 : Fin 32, ∃ t : Fin cfg0.N, win0_7.index t = ![q0.val, 0] ∧ win0_8.index t = ![q0.val, 0] ∧ win0_9.index t = ![q0.val, 0] :=
  (by decide +kernel : ∀ q0 : Fin 32, ∃ t : Fin grid0.N, win0_7.index t = ![q0.val, 0] ∧ win0_8.index t = ![q0.val, 0] ∧ win0_9.index t = ![q0.val, 0])

/-! ## The blocks' loads read at an entry -/

theorem rowblk0_0 (c : Dev nD) (t : Fin cfg0.N) (p : Fin 256) (k : Fin 1024) (r : Fin 8192) (hr : r.val = win0_7.index t (0 : Fin 2) * 256 + p.val) :
    View.ld (iblk0 V c 0 t) rRow0 (ix2 p k) = gX V c (ix2 r k) := by
  obtain ⟨f0, f1, f2, f3, f4, f5, f6, f8, f9, f71, f70⟩ := idx_facts0 t
  refine (congrFun (View.ld_unit_zero (S := S256x1024) hz0 _ (iblk0 V c 0 t)) (ix2 p k)).trans ?_
  show gX V c (((cfg0.win 0).blk t).view.emb (ix2 p k)) = _
  refine congrArg _ (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega
theorem rowblk0_1 (c : Dev nD) (t : Fin cfg0.N) (p : Fin 256) (k : Fin 1024) (r : Fin 8192) (hr : r.val = win0_7.index t (0 : Fin 2) * 256 + p.val) :
    View.ld (iblk0 V c 1 t) rRow0 (ix2 p k) = gH V c (ix2 r k) := by
  obtain ⟨f0, f1, f2, f3, f4, f5, f6, f8, f9, f71, f70⟩ := idx_facts0 t
  refine (congrFun (View.ld_unit_zero (S := S256x1024) hz0 _ (iblk0 V c 1 t)) (ix2 p k)).trans ?_
  show gH V c (((cfg0.win 1).blk t).view.emb (ix2 p k)) = _
  refine congrArg _ (funext fun a => Fin.ext ?_)
  match a with
  | ⟨0, _⟩ => show win0_1.index t (0 : Fin 2) * 256 + 1 * p.val = r.val; omega
  | ⟨1, _⟩ => show win0_1.index t (1 : Fin 2) * 1024 + 1 * k.val = k.val; omega
theorem rowblk0_2 (c : Dev nD) (t : Fin cfg0.N) (p : Fin 256) (k : Fin 1024) (r : Fin 8192) (hr : r.val = win0_7.index t (0 : Fin 2) * 256 + p.val) :
    View.ld (iblk0 V c 2 t) rRow0 (ix2 p k) = gC V c (ix2 r k) := by
  obtain ⟨f0, f1, f2, f3, f4, f5, f6, f8, f9, f71, f70⟩ := idx_facts0 t
  refine (congrFun (View.ld_unit_zero (S := S256x1024) hz0 _ (iblk0 V c 2 t)) (ix2 p k)).trans ?_
  show gC V c (((cfg0.win 2).blk t).view.emb (ix2 p k)) = _
  refine congrArg _ (funext fun a => Fin.ext ?_)
  match a with
  | ⟨0, _⟩ => show win0_2.index t (0 : Fin 2) * 256 + 1 * p.val = r.val; omega
  | ⟨1, _⟩ => show win0_2.index t (1 : Fin 2) * 1024 + 1 * k.val = k.val; omega
theorem rowblk0_3 (c : Dev nD) (t : Fin cfg0.N) (p : Fin 256) (k : Fin 1024) (r : Fin 8192) (hr : r.val = win0_7.index t (0 : Fin 2) * 256 + p.val) :
    View.ld (iblk0 V c 3 t) rRow0 (ix2 p k) = gCb V c (ix2 r k) := by
  obtain ⟨f0, f1, f2, f3, f4, f5, f6, f8, f9, f71, f70⟩ := idx_facts0 t
  refine (congrFun (View.ld_unit_zero (S := S256x1024) hz0 _ (iblk0 V c 3 t)) (ix2 p k)).trans ?_
  show gCb V c (((cfg0.win 3).blk t).view.emb (ix2 p k)) = _
  refine congrArg _ (funext fun a => Fin.ext ?_)
  match a with
  | ⟨0, _⟩ => show win0_3.index t (0 : Fin 2) * 256 + 1 * p.val = r.val; omega
  | ⟨1, _⟩ => show win0_3.index t (1 : Fin 2) * 1024 + 1 * k.val = k.val; omega

/-- Gate `g`'s rows of a stacked weight half, loaded, read at `(q, k)`: the stack's row `1024 g + q`. -/
theorem ldW (x : Vec Ideal S6144x1024 .bf16) (g : Fin 6) (off : Fin 2 → Nat) (inb) (hoff : off = ![1024 * g.val, 0]) (q k : Fin 1024) :
    View.ld x (Rect.unit (s := S6144x1024) off S1024x1024.size inb) (ix2 q k) = x (ix2 (srow g q) k) := by
  subst hoff
  show x ((Rect.unit (s := S6144x1024) ![1024 * g.val, 0] S1024x1024.size inb).idx (ix2 q k)) = _
  refine congrArg x (funext fun a => Fin.ext ?_)
  match a with
  | ⟨0, _⟩ => show 1024 * g.val + 1 * q.val = 1024 * g.val + q.val; omega
  | ⟨1, _⟩ => show 0 + 1 * k.val = k.val; omega
/-- Gate `g`'s columns of the stacked bias row, loaded, read at `(0, q)`. -/
theorem ldB (x : Vec Ideal S1x6144 .f32) (g : Fin 6) (off : Fin 2 → Nat) (inb) (hoff : off = ![0, 1024 * g.val]) (q : Fin 1024) :
    View.ld x (Rect.unit (s := S1x6144) off S1x1024.size inb) (ix2 (0 : Fin 1) q) = x (ix2 (0 : Fin 1) (srow g q)) := by
  subst hoff
  show x ((Rect.unit (s := S1x6144) ![0, 1024 * g.val] S1x1024.size inb).idx (ix2 (0 : Fin 1) q)) = _
  refine congrArg x (funext fun a => Fin.ext ?_)
  match a with
  | ⟨0, _⟩ => show 0 + 1 * (0 : Fin 1).val = (0 : Fin 1).val; omega
  | ⟨1, _⟩ => show 1024 * g.val + 1 * q.val = 1024 * g.val + q.val; omega

/-- The stacked weight halves' and bias row's block is the whole array at every point. -/
theorem wblk0_4 (c : Dev nD) (t : Fin cfg0.N) (q : Fin 6144) (k : Fin 1024) :
    (iblk0 V c 4 t) (ix2 q k) = gWx V c (ix2 q k) := by
  obtain ⟨f0, f1, f2, f3, f4, f5, f6, f8, f9, f71, f70⟩ := idx_facts0 t
  show gWx V c (((cfg0.win 4).blk t).view.emb (ix2 q k)) = _
  refine congrArg _ (funext fun a => Fin.ext ?_)
  match a with
  | ⟨0, _⟩ => show win0_4.index t (0 : Fin 2) * 6144 + 1 * q.val = q.val; omega
  | ⟨1, _⟩ => show win0_4.index t (1 : Fin 2) * 1024 + 1 * k.val = k.val; omega
theorem wblk0_5 (c : Dev nD) (t : Fin cfg0.N) (q : Fin 6144) (k : Fin 1024) :
    (iblk0 V c 5 t) (ix2 q k) = gWh V c (ix2 q k) := by
  obtain ⟨f0, f1, f2, f3, f4, f5, f6, f8, f9, f71, f70⟩ := idx_facts0 t
  show gWh V c (((cfg0.win 5).blk t).view.emb (ix2 q k)) = _
  refine congrArg _ (funext fun a => Fin.ext ?_)
  match a with
  | ⟨0, _⟩ => show win0_5.index t (0 : Fin 2) * 6144 + 1 * q.val = q.val; omega
  | ⟨1, _⟩ => show win0_5.index t (1 : Fin 2) * 1024 + 1 * k.val = k.val; omega
theorem bblk0_6 (c : Dev nD) (t : Fin cfg0.N) (q : Fin 6144) :
    (iblk0 V c 6 t) (ix2 (0 : Fin 1) q) = gB V c (ix2 (0 : Fin 1) q) := by
  obtain ⟨f0, f1, f2, f3, f4, f5, f6, f8, f9, f71, f70⟩ := idx_facts0 t
  show gB V c (((cfg0.win 6).blk t).view.emb (ix2 (0 : Fin 1) q)) = _
  refine congrArg _ (funext fun a => Fin.ext ?_)
  match a with
  | ⟨0, _⟩ => show win0_6.index t (0 : Fin 2) * 1 + 1 * (0 : Fin 1).val = (0 : Fin 1).val; omega
  | ⟨1, _⟩ => show win0_6.index t (1 : Fin 2) * 6144 + 1 * q.val = q.val; omega

/-- A gate's pre-activation off the point's loads is the gate's pre-activation off the arrays, at the block's row. -/
theorem gate_blk (c : Dev nD) (t : Fin cfg0.N) (g : Fin 6) (offW offB : Fin 2 → Nat) (inbW inbB)
    (hW : offW = ![1024 * g.val, 0]) (hB : offB = ![0, 1024 * g.val]) (p : Fin 256) (q : Fin 1024) (r : Fin 8192)
    (hr : r.val = win0_7.index t (0 : Fin 2) * 256 + p.val) :
    zb (View.ld (iblk0 V c 0 t) rRow0) (View.ld (iblk0 V c 1 t) rRow0)
      (View.ld (iblk0 V c 4 t) (Rect.unit (s := S6144x1024) offW S1024x1024.size inbW))
      (View.ld (iblk0 V c 5 t) (Rect.unit (s := S6144x1024) offW S1024x1024.size inbW))
      (View.ld (iblk0 V c 6 t) (Rect.unit (s := S1x6144) offB S1x1024.size inbB)) p q = gz V c g r q := by
  unfold zb gz
  refine congrArg₂ (· + ·) (congrArg₂ (· + ·) (Finset.sum_congr rfl fun k _ => ?_) (Finset.sum_congr rfl fun k _ => ?_)) ?_
  · exact congrArg₂ (· * ·) (rowblk0_0 V c t p k r hr) ((ldW (iblk0 V c 4 t) g offW inbW hW q k).trans (wblk0_4 V c t (srow g q) k))
  · exact congrArg₂ (· * ·) (rowblk0_1 V c t p k r hr) ((ldW (iblk0 V c 5 t) g offW inbW hW q k).trans (wblk0_5 V c t (srow g q) k))
  · exact (ldB (iblk0 V c 6 t) g offB inbB hB q).trans (bblk0_6 V c t (srow g q))

/-! ## What each point writes back -/

/-- Point `t`'s row `p` is row `256 · (block index) + p` of the arrays, below 8192. -/
theorem row_lt (t : Fin cfg0.N) (p : Fin 256) : win0_7.index t (0 : Fin 2) * 256 + p.val < 8192 := by
  obtain ⟨f0, f1, f2, f3, f4, f5, f6, f8, f9, f71, f70⟩ := idx_facts0 t; have := p.isLt; omega

/-- The candidate value off the point's blocks. -/
theorem cand_blk (c : Dev nD) (t : Fin cfg0.N) (p : Fin 256) (q : Fin 1024) :
    cand0 (iblk0 V c 0 t) (iblk0 V c 1 t) (iblk0 V c 4 t) (iblk0 V c 5 t) (iblk0 V c 6 t) (ix2 p q)
      = th (gz V c 5 ⟨_, row_lt t p⟩ q) := by
  unfold cand0
  exact (pay5_apply _ _ _ _ _ p q).trans (congrArg th (gate_blk V c t 5 _ _ _ _ rfl rfl p q ⟨_, row_lt t p⟩ rfl))

theorem flushed0_7_eq (c : Dev nD) (t : Fin cfg0.N) :
    (dat0 V c).flushed 7 t = ((cfg0.win 7).blk t).view.read (Elt Ideal) (cellArr V c) := by
  show (cfg0.win 7).cut (grid0.coords t) ((dat0 V c).after 7 t) = _
  rw [after0_7]
  unfold out0_7
  rw [View.canon_unit_zero hz0]
  funext y
  obtain ⟨p, q, rfl⟩ : ∃ (p : Fin 256) (q : Fin 1024), y = ix2 p q := ⟨y 0, y 1, eq_ix2 y⟩
  obtain ⟨f0, f1, f2, f3, f4, f5, f6, f8, f9, f71, f70⟩ := idx_facts0 t
  refine (pay9_apply _ _ _ _ _ _ _ p q).trans ?_
  show _ = arr2 (cellEntry V c) (((cfg0.win 7).blk t).view.emb (ix2 p q))
  refine Eq.trans ?_ (arr2_at (cellEntry V c) _ ⟨_, row_lt t p⟩ q ?_ ?_).symm
  · unfold cellEntry
    refine congrArg₂ (· + ·) (congrArg₂ (· * ·) (congrArg sg ?_) ?_) (congrArg₂ (· * ·) ?_ ?_)
    · simp only [pay8_apply, pay4_eq, pay7_eq]
      exact gate_blk V c t 1 _ _ _ _ rfl rfl p q ⟨_, row_lt t p⟩ rfl
    · exact rowblk0_2 V c t p q ⟨_, row_lt t p⟩ rfl
    · exact (pay6_apply _ _ _ _ _ p q).trans (congrArg sg (gate_blk V c t 0 _ _ _ _ rfl rfl p q ⟨_, row_lt t p⟩ rfl))
    · exact cand_blk V c t p q
  · show win0_7.index t (0 : Fin 2) * 256 + 1 * p.val = win0_7.index t (0 : Fin 2) * 256 + p.val; omega
  · show win0_7.index t (1 : Fin 2) * 1024 + 1 * q.val = q.val; omega

theorem flushed0_8_eq (c : Dev nD) (t : Fin cfg0.N) :
    (dat0 V c).flushed 8 t = ((cfg0.win 8).blk t).view.read (Elt Ideal) (cellBarArr V c) := by
  show (cfg0.win 8).cut (grid0.coords t) ((dat0 V c).after 8 t) = _
  rw [after0_8]
  unfold out0_8
  rw [View.canon_unit_zero hz0]
  funext y
  obtain ⟨p, q, rfl⟩ : ∃ (p : Fin 256) (q : Fin 1024), y = ix2 p q := ⟨y 0, y 1, eq_ix2 y⟩
  obtain ⟨f0, f1, f2, f3, f4, f5, f6, f8, f9, f71, f70⟩ := idx_facts0 t
  refine (pay1_apply _ _ _ _ p q).trans ?_
  show _ = arr2 (cellBarEntry V c) (((cfg0.win 8).blk t).view.emb (ix2 p q))
  refine Eq.trans ?_ (arr2_at (cellBarEntry V c) _ ⟨_, row_lt t p⟩ q ?_ ?_).symm
  · unfold cellBarEntry
    refine congrArg₂ (· + ·) (congrArg₂ (· * ·) ?_ ?_) (congrArg₂ (· * ·) ?_ ?_)
    · simp only [pay3_eq, pay4_eq]
      exact (pay11_apply _ _ _ _ _ p q).trans (congrArg sg (gate_blk V c t 4 _ _ _ _ rfl rfl p q ⟨_, row_lt t p⟩ rfl))
    · exact rowblk0_3 V c t p q ⟨_, row_lt t p⟩ rfl
    · simp only [pay3_eq, pay4_eq]
      exact (pay10_apply _ _ _ _ _ p q).trans (congrArg sg (gate_blk V c t 3 _ _ _ _ rfl rfl p q ⟨_, row_lt t p⟩ rfl))
    · exact cand_blk V c t p q
  · show win0_8.index t (0 : Fin 2) * 256 + 1 * p.val = win0_7.index t (0 : Fin 2) * 256 + p.val; omega
  · show win0_8.index t (1 : Fin 2) * 1024 + 1 * q.val = q.val; omega

theorem flushed0_9_eq (c : Dev nD) (t : Fin cfg0.N) :
    (dat0 V c).flushed 9 t = ((cfg0.win 9).blk t).view.read (Elt Ideal) (goArr V c) := by
  show (cfg0.win 9).cut (grid0.coords t) ((dat0 V c).after 9 t) = _
  rw [after0_9]
  unfold out0_9
  rw [View.canon_unit_zero hz0]
  funext y
  obtain ⟨p, q, rfl⟩ : ∃ (p : Fin 256) (q : Fin 1024), y = ix2 p q := ⟨y 0, y 1, eq_ix2 y⟩
  obtain ⟨f0, f1, f2, f3, f4, f5, f6, f8, f9, f71, f70⟩ := idx_facts0 t
  show _ = arr2 (goEntry V c) (((cfg0.win 9).blk t).view.emb (ix2 p q))
  refine Eq.trans ?_ (arr2_at (goEntry V c) _ ⟨_, row_lt t p⟩ q ?_ ?_).symm
  · unfold goEntry
    simp only [pay3_eq, pay4_eq]
    exact (pay2_apply _ _ _ _ _ p q).trans (congrArg sg (gate_blk V c t 2 _ _ _ _ rfl rfl p q ⟨_, row_lt t p⟩ rfl))
  · show win0_9.index t (0 : Fin 2) * 256 + 1 * p.val = win0_7.index t (0 : Fin 2) * 256 + p.val; omega
  · show win0_9.index t (1 : Fin 2) * 1024 + 1 * q.val = q.val; omega

/-! ## The blocks tile the arrays -/

theorem mem_blk0_7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v12_0).slice (win0_7.rect t)).set ↔ _
  rw [View.set_slice_whole, Rect.mem_set_unit]
  exact Iff.rfl
theorem mem_blk0_8 (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v12_1).slice (win0_8.rect t)).set ↔ _
  rw [View.set_slice_whole, Rect.mem_set_unit]
  exact Iff.rfl
theorem mem_blk0_9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v12_2).slice (win0_9.rect t)).set ↔ _
  rw [View.set_slice_whole, Rect.mem_set_unit]
  exact Iff.rfl

theorem cover0_7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht, -, -⟩ := idx_onto0 ⟨(i 0).val / 256, by omega⟩
  have q0 : win0_7.index t (0 : Fin 2) = (i 0).val / 256 := congrFun ht 0
  have q1 : win0_7.index t (1 : Fin 2) = 0 := congrFun ht 1
  refine ⟨t, flush0_7 t, ?_⟩
  rw [mem_blk0_7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega
theorem cover0_8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t, -, ht, -⟩ := idx_onto0 ⟨(i 0).val / 256, by omega⟩
  have q0 : win0_8.index t (0 : Fin 2) = (i 0).val / 256 := congrFun ht 0
  have q1 : win0_8.index t (1 : Fin 2) = 0 := congrFun ht 1
  refine ⟨t, flush0_8 t, ?_⟩
  rw [mem_blk0_8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega
theorem cover0_9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  obtain ⟨t, -, -, ht⟩ := idx_onto0 ⟨(i 0).val / 256, by omega⟩
  have q0 : win0_9.index t (0 : Fin 2) = (i 0).val / 256 := congrFun ht 0
  have q1 : win0_9.index t (1 : Fin 2) = 0 := congrFun ht 1
  refine ⟨t, flush0_9 t, ?_⟩
  rw [mem_blk0_9]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 1024 ≤ (i 1).val ∧ (i 1).val < win0_9.index t (1 : Fin 2) * 1024 + 1024; omega

/-! ## The arrays after the run -/

theorem final0_7 (c : Dev nD) : (dat0 V c).arrAt 7 cfg0.N = cellArr V c :=
  (dat0 V c).arrAt_eq_of_cover 7 (cellArr V c) (fun t _ => flushed0_7_eq V c t) cover0_7
theorem final0_8 (c : Dev nD) : (dat0 V c).arrAt 8 cfg0.N = cellBarArr V c :=
  (dat0 V c).arrAt_eq_of_cover 8 (cellBarArr V c) (fun t _ => flushed0_8_eq V c t) cover0_8
theorem final0_9 (c : Dev nD) : (dat0 V c).arrAt 9 cfg0.N = goArr V c :=
  (dat0 V c).arrAt_eq_of_cover 9 (goArr V c) (fun t _ => flushed0_9_eq V c t) cover0_9

end Cert.KernelIdeal.Hand

end
-- ==== Proof.IdealBlocks1.lean ====
/-
  The decay region's result array after the run, as one function of the arrays the region is entered with.

  Point `t` writes back rows `256 t … 256 t + 255`: entry `(256 t + p, q)` is the activation of the row `256 t + p` of
  `x` against row `q` of the first weight half, plus the same row of `h` against row `q` of the second, plus the bias
  row's entry `q`.  The 32 blocks tile the 8192 rows, so the whole array is that function.
-/
import proofs.«115463_j39719857553628_2_alg».proof.Proof.IdealRegion1
import proofs.«115463_j39719857553628_2_alg».proof.Proof.Payloads
import proofs.«115463_j39719857553628_2_alg».proof.Proof.ArrAt
import Idealize.ShloMosaic.Lib.Pipeline.Value

set_option maxRecDepth 16384

noncomputable section

namespace Cert.KernelIdeal.Hand

open Cert.KernelIdeal Cert.KernelIdeal.Gen Cert.Lstm Cert.Lstm.Pay
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The region-entry arrays the decay kernel reads, as functions of an index. -/
def eX (c : Dev nD) : S8192x1024.Idx → EReal := V c main_arg0
def eH (c : Dev nD) : S8192x1024.Idx → EReal := V c main_arg1
def eWx (c : Dev nD) : S4096x1024.Idx → EReal := V c main_v8
def eWh (c : Dev nD) : S4096x1024.Idx → EReal := V c main_v10
def eB (c : Dev nD) : S1x4096.Idx → EReal := V c main_v11

/-- The decay pre-activation then activation at row `i`, column `q`, off the region-entry arrays. -/
def decayEntry (c : Dev nD) (i : Fin 8192) (q : Fin 4096) : EReal :=
  act (((∑ k : Fin 1024, eX V c (ix2 i k) * eWx V c (ix2 q k)) + (∑ k : Fin 1024, eH V c (ix2 i k) * eWh V c (ix2 q k)))
    + eB V c (ix2 (0 : Fin 1) q))

/-- The result array. -/
def decayArr (c : Dev nD) : S8192x4096.Idx → EReal := arr2 (decayEntry V c)

/-- The printed index maps, decided over the grid: the row windows move with the result's, the weights and the bias stay. -/
theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 31 :=
  (by decide +kernel : ∀ t : Fin grid1.N, _)

/-- Every row block is some point's. -/
theorem idx_onto1 : ∀ q0 : Fin 32, ∃ t : Fin cfg1.N, win1_5.index t = ![q0.val, 0] :=
  (by decide +kernel : ∀ q0 : Fin 32, ∃ t : Fin grid1.N, win1_5.index t = ![q0.val, 0])

/-- A row operand's block at point `t`, entry `(p, k)`, is the array's entry at row `block index · 256 + p`. -/
theorem rowblk1_0 (c : Dev nD) (t : Fin cfg1.N) (p : Fin 256) (k : Fin 1024) (r : Fin 8192) (hr : r.val = win1_5.index t (0 : Fin 2) * 256 + p.val) :
    (iblk1 V c 0 t : S256x1024.Idx → EReal) (ix2 p k) = eX V c (ix2 r k) := by
  obtain ⟨e0, e1, -⟩ := idx_facts1 t
  show eX V c (((cfg1.win 0).blk t).view.emb (ix2 p k)) = _
  refine congrArg _ (funext fun a => Fin.ext ?_)
  match a with
  | ⟨0, _⟩ => show win1_0.index t (0 : Fin 2) * 256 + 1 * p.val = r.val; omega
  | ⟨1, _⟩ => show win1_0.index t (1 : Fin 2) * 1024 + 1 * k.val = k.val; omega
theorem rowblk1_1 (c : Dev nD) (t : Fin cfg1.N) (p : Fin 256) (k : Fin 1024) (r : Fin 8192) (hr : r.val = win1_5.index t (0 : Fin 2) * 256 + p.val) :
    (iblk1 V c 1 t : S256x1024.Idx → EReal) (ix2 p k) = eH V c (ix2 r k) := by
  obtain ⟨-, -, e0, e1, -⟩ := idx_facts1 t
  show eH V c (((cfg1.win 1).blk t).view.emb (ix2 p k)) = _
  refine congrArg _ (funext fun a => Fin.ext ?_)
  match a with
  | ⟨0, _⟩ => show win1_1.index t (0 : Fin 2) * 256 + 1 * p.val = r.val; omega
  | ⟨1, _⟩ => show win1_1.index t (1 : Fin 2) * 1024 + 1 * k.val = k.val; omega
/-- The weight halves' and the bias row's block is the whole array at every point. -/
theorem wblk1_2 (c : Dev nD) (t : Fin cfg1.N) (q : Fin 4096) (k : Fin 1024) :
    (iblk1 V c 2 t : S4096x1024.Idx → EReal) (ix2 q k) = eWx V c (ix2 q k) := by
  obtain ⟨-, -, -, -, e0, e1, -⟩ := idx_facts1 t
  show eWx V c (((cfg1.win 2).blk t).view.emb (ix2 q k)) = _
  refine congrArg _ (funext fun a => Fin.ext ?_)
  match a with
  | ⟨0, _⟩ => show win1_2.index t (0 : Fin 2) * 4096 + 1 * q.val = q.val; omega
  | ⟨1, _⟩ => show win1_2.index t (1 : Fin 2) * 1024 + 1 * k.val = k.val; omega
theorem wblk1_3 (c : Dev nD) (t : Fin cfg1.N) (q : Fin 4096) (k : Fin 1024) :
    (iblk1 V c 3 t : S4096x1024.Idx → EReal) (ix2 q k) = eWh V c (ix2 q k) := by
  obtain ⟨-, -, -, -, -, -, e0, e1, -⟩ := idx_facts1 t
  show eWh V c (((cfg1.win 3).blk t).view.emb (ix2 q k)) = _
  refine congrArg _ (funext fun a => Fin.ext ?_)
  match a with
  | ⟨0, _⟩ => show win1_3.index t (0 : Fin 2) * 4096 + 1 * q.val = q.val; omega
  | ⟨1, _⟩ => show win1_3.index t (1 : Fin 2) * 1024 + 1 * k.val = k.val; omega
theorem bblk1_4 (c : Dev nD) (t : Fin cfg1.N) (q : Fin 4096) :
    (iblk1 V c 4 t : S1x4096.Idx → EReal) (ix2 (0 : Fin 1) q) = eB V c (ix2 (0 : Fin 1) q) := by
  obtain ⟨-, -, -, -, -, -, -, -, e0, e1, -⟩ := idx_facts1 t
  show eB V c (((cfg1.win 4).blk t).view.emb (ix2 (0 : Fin 1) q)) = _
  refine congrArg _ (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 4096 + 1 * q.val = q.val; omega

/-- WHAT POINT `t` WRITES BACK is block `t` of the result array. -/
theorem flushed1_eq (c : Dev nD) (t : Fin cfg1.N) :
    (dat1 V c).flushed 5 t = ((cfg1.win 5).blk t).view.read (Elt Ideal) (decayArr V c) := by
  show (cfg1.win 5).cut (grid1.coords t) ((dat1 V c).after 5 t) = _
  rw [after1_5]
  unfold out1_5
  rw [View.canon_unit_zero hz1]
  simp only [View.ld_unit_zero (S := S256x1024) hz1, View.ld_unit_zero (S := S4096x1024) hz1, View.ld_unit_zero (S := S1x4096) hz1]
  obtain ⟨-, -, -, -, -, -, -, -, -, -, e51, e50⟩ := idx_facts1 t
  funext y
  obtain ⟨p, q, rfl⟩ : ∃ (p : Fin 256) (q : Fin 4096), y = ix2 p q := ⟨y 0, y 1, eq_ix2 y⟩
  have hr : win1_5.index t (0 : Fin 2) * 256 + p.val < 8192 := by have := p.isLt; omega
  refine (k1_apply _ _ _ _ _ p q).trans ?_
  show _ = arr2 (decayEntry V c) (((cfg1.win 5).blk t).view.emb (ix2 p q))
  refine Eq.trans ?_ (arr2_at (decayEntry V c) _ ⟨win1_5.index t (0 : Fin 2) * 256 + p.val, hr⟩ q ?_ ?_).symm
  · unfold decayEntry zb
    refine congrArg act ?_
    refine congrArg₂ (· + ·) (congrArg₂ (· + ·) (Finset.sum_congr rfl fun k _ => ?_) (Finset.sum_congr rfl fun k _ => ?_)) ?_
    · rw [rowblk1_0 V c t p k ⟨_, hr⟩ rfl, wblk1_2 V c t q k]
    · rw [rowblk1_1 V c t p k ⟨_, hr⟩ rfl, wblk1_3 V c t q k]
    · exact bblk1_4 V c t q
  · show win1_5.index t (0 : Fin 2) * 256 + 1 * p.val = win1_5.index t (0 : Fin 2) * 256 + p.val; omega
  · show win1_5.index t (1 : Fin 2) * 4096 + 1 * q.val = q.val; omega

/-- An index of the array is in point `t`'s block iff each coordinate is in the block's range on its axis. -/
theorem mem_blk1 (t : Fin cfg1.N) (i : S8192x4096.Idx) :
    i ∈ ((cfg1.win 5).blk t).view.set ↔ ∀ a : Fin 2, win1_5.index t a * S256x4096.size a ≤ (i a).val ∧ (i a).val < win1_5.index t a * S256x4096.size a + S256x4096.size a := by
  show i ∈ ((View.whole main_v13).slice (win1_5.rect t)).set ↔ _
  rw [View.set_slice_whole, Rect.mem_set_unit]
  exact Iff.rfl

/-- Every index is in some point's block: the point whose block index is the row divided by 256. -/
theorem cover1 (i : S8192x4096.Idx) : ∃ t : Fin cfg1.N, (cfg1.win 5).flush t = true ∧ i ∈ ((cfg1.win 5).blk t).view.set := by
  have hi0 : (i 0).val < 8192 := (i 0).isLt
  have hi1 : (i 1).val < 4096 := (i 1).isLt
  obtain ⟨t, ht⟩ := idx_onto1 ⟨(i 0).val / 256, by omega⟩
  have q0 : win1_5.index t (0 : Fin 2) = (i 0).val / 256 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 4096 ≤ (i 1).val ∧ (i 1).val < win1_5.index t (1 : Fin 2) * 4096 + 4096; omega

/-- THE ARRAY after the run. -/
theorem final1 (c : Dev nD) : (dat1 V c).arrAt 5 cfg1.N = decayArr V c :=
  (dat1 V c).arrAt_eq_of_cover 5 (decayArr V c) (fun t _ => flushed1_eq V c t) (cover1)

end Cert.KernelIdeal.Hand

end
-- ==== Proof.LibNaryResult.lean ====
/-
  The result of a host operation over a literal family of six or of nine operand references (a concatenation of six
  or nine arrays), with each operand's contents read at that operand's own reference instead of under a binder over
  the family's index: so stated, a fold over a line of operations goes on rewriting the operands' contents, where under
  the binder the reference is no literal and no result lemma applies to it.
-/
import Idealize.ShloMosaic.Lib.StableHlo.Run

noncomputable section

namespace Idealize.ShloMosaic.StableHlo

variable {τ : Topo} {sig : RefSig} {Val : EltTy → Type}
variable {x0 x1 x2 x3 x4 x5 x6 x7 x8 y : Ref sig .tc}

/-- A host operation over a LITERAL family of 6 operand references: its result with each operand's contents read at
    that operand's own reference. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (fun i => i.elim0))))))) := by
  rw [nary_result]; congr 1; funext k; fin_cases k <;> rfl
/-- The same, stated for the simplifier (the result reference un-indexed). -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (fun i => i.elim0))))))) :=
  nary6_result f hxs hy F

/-- A host operation over a LITERAL family of 9 operand references: its result with each operand's contents read at
    that operand's own reference. -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl
/-- The same, stated for the simplifier (the result reference un-indexed). -/
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

end Idealize.ShloMosaic.StableHlo

end
-- ==== Proof.HostReads.lean ====
/-
  What the host operations around the two kernel regions hold, entry by entry.

  Before the regions the program joins the six gate weights along their rows into one `[6144, 2048]` array and the six
  gate biases into one `[6144]` vector, cuts the joined weight (and the decay weight) into its first and its last 1024
  columns, narrows each half (the identity on the extended reals), and makes each bias vector a one-row matrix.  After
  them it regroups the `[8192, 4096]` decay result as 1024 groups of 4.  Each lemma here reads one of those arrays at an
  entry, over ANY contents of the buffers before the operations:

  * row `1024 g + r` of a half of the joined weight is row `r` of gate `g`'s weight, at column `k` (first half) or
    `1024 + k` (second half);
  * entry `(0, 1024 g + r)` of the bias row is entry `r` of gate `g`'s bias;
  * entry `(r, k)` of a half of the decay weight is the weight's entry `(r, k)` or `(r, 1024 + k)`, and entry `(0, r)`
    of the decay bias row is the bias's entry `r`;
  * entry `(i, j, l)` of the regrouped result is entry `(i, 4 j + l)`.

  A join of six pieces of one shape reads the piece the row's quotient by the pieces' extent names, at the remainder
  (`join6_rows`, `join6_vec`: general in the extents).
-/
import proofs.«115463_j39719857553628_2_alg».proof.Proof.Gen.KernelIdeal.Launch
import proofs.«115463_j39719857553628_2_alg».proof.Proof.LibNaryResult
import proofs.«115463_j39719857553628_2_alg».proof.Proof.Spec
import Idealize.ShloMosaic.Lib.Pipeline.Value
import Idealize.ShloMosaic.Lib.ValueIdx

noncomputable section

namespace Cert.Lstm.Host

open Idealize.ShloMosaic Idealize.ShloMosaic.ValueIdx Idealize.ShloMosaic.StableHlo
open Cert.KernelIdeal Cert.KernelIdeal.Gen Cert.Lstm

/-- The six gate weights in the order the program joins them. -/
def gW (W : Valuation τ sig (Elt Ideal)) : Fin 6 → ((⟨2, ![1024, 2048]⟩ : Shape).Idx → EReal)
  | ⟨0, _⟩ => W (Proc.devRef .tc main_arg4)
  | ⟨1, _⟩ => W (Proc.devRef .tc main_arg6)
  | ⟨2, _⟩ => W (Proc.devRef .tc main_arg8)
  | ⟨3, _⟩ => W (Proc.devRef .tc main_arg10)
  | ⟨4, _⟩ => W (Proc.devRef .tc main_arg12)
  | ⟨5, _⟩ => W (Proc.devRef .tc main_arg14)
  | ⟨_ + 6, h⟩ => absurd h (Nat.not_lt.2 (Nat.le_add_left _ _))

/-- The six gate biases in the same order. -/
def gB (W : Valuation τ sig (Elt Ideal)) : Fin 6 → ((⟨1, ![1024]⟩ : Shape).Idx → EReal)
  | ⟨0, _⟩ => W (Proc.devRef .tc main_arg5)
  | ⟨1, _⟩ => W (Proc.devRef .tc main_arg7)
  | ⟨2, _⟩ => W (Proc.devRef .tc main_arg9)
  | ⟨3, _⟩ => W (Proc.devRef .tc main_arg11)
  | ⟨4, _⟩ => W (Proc.devRef .tc main_arg13)
  | ⟨5, _⟩ => W (Proc.devRef .tc main_arg15)
  | ⟨_ + 6, h⟩ => absurd h (Nat.not_lt.2 (Nat.le_add_left _ _))

/-! ## The decay side and the regrouping after the regions -/

/-- The decay bias made a row: entry `(0, r)` of the `[1, 4096]` array is entry `r` of the vector. -/
theorem host_db (W : Valuation τ sig (Elt Ideal)) (r : Fin 4096) :
    (StableHlo.after (hostOps0 (F := Ideal)) W (Proc.devRef .tc main_v11) : S1x4096.Idx → EReal) (ix2 (0 : Fin 1) r)
      = (W (Proc.devRef .tc main_arg17) : S4096.Idx → EReal) (ix1 r) := by
  simp only [hostOps0]
  after_results_simp
  refine shapeCast_apply (s := S4096) (t := S1x4096) _ _ _ (ix1 r) ?_
  rw [Shape.rowMajor_val_one, Shape.rowMajor_val_two]
  show r.val = 0 * 4096 + r.val
  omega

/-- The `[8192, 4096]` result regrouped as 1024 groups of 4: entry `(i, j, l)` is entry `(i, 4 j + l)`, the two having
    one row-major position. -/
theorem host_tail (W' : Valuation τ sig (Elt Ideal)) (i : Fin 8192) (j : Fin 1024) (l : Fin 4) :
    (StableHlo.after (hostOps2 (F := Ideal)) W' (Proc.devRef .tc main_v14) : S8192x1024x4.Idx → EReal) (ix3 i j l)
      = (W' (Proc.devRef .tc main_v13) : S8192x4096.Idx → EReal) (ix2 i ⟨4 * j.val + l.val, by omega⟩) := by
  simp only [hostOps2]
  after_results_simp
  refine shapeCast_apply (s := S8192x4096) (t := S8192x1024x4) _ _ _ (ix2 i ⟨4 * j.val + l.val, by omega⟩) ?_
  rw [Shape.rowMajor_val_two, Shape.rowMajor_val_three]
  show i.val * 4096 + (4 * j.val + l.val) = (i.val * 1024 + j.val) * 4 + l.val
  omega

/-- The first 1024 columns of the decay weight, narrowed (the identity on the extended reals): entry `(r, k)` is the
    weight's entry `(r, k)`. -/
theorem host_dx (W : Valuation τ sig (Elt Ideal)) (r : Fin 4096) (k : Fin 1024) :
    (StableHlo.after (hostOps0 (F := Ideal)) W (Proc.devRef .tc main_v8) : S4096x1024.Idx → EReal) (ix2 r k)
      = (W (Proc.devRef .tc main_arg16) : S4096x2048.Idx → EReal) (ix2 r (lo k)) := by
  simp only [hostOps0]
  after_results_simp
  refine Eq.trans (truncf_apply _ _ _) ?_
  refine extractStridedSlice_apply (s := S4096x2048) (t := S4096x1024) _ _ _ _ (ix2 r (lo k)) fun a => ?_
  match a with
  | ⟨0, _⟩ => show r.val = 0 + r.val; omega
  | ⟨1, _⟩ => show k.val = 0 + k.val; omega

/-- The last 1024 columns of the decay weight, narrowed: entry `(r, k)` is the weight's entry `(r, 1024 + k)`. -/
theorem host_dh (W : Valuation τ sig (Elt Ideal)) (r : Fin 4096) (k : Fin 1024) :
    (StableHlo.after (hostOps0 (F := Ideal)) W (Proc.devRef .tc main_v10) : S4096x1024.Idx → EReal) (ix2 r k)
      = (W (Proc.devRef .tc main_arg16) : S4096x2048.Idx → EReal) (ix2 r (hi k)) := by
  simp only [hostOps0]
  after_results_simp
  refine Eq.trans (truncf_apply _ _ _) ?_
  refine extractStridedSlice_apply (s := S4096x2048) (t := S4096x1024) _ _ _ _ (ix2 r (hi k)) fun a => ?_
  match a with
  | ⟨0, _⟩ => show r.val = 0 + r.val; omega
  | ⟨1, _⟩ => show 1024 + k.val = 1024 + k.val; rfl

/-! ## Six arrays of one shape joined along the first axis -/

section Join6
variable {α : Type} {E C T : ℕ}

/-- Row `E g + e` of six `[E, C]` arrays joined along their rows is row `e` of piece `g`. -/
theorem join6_rows
    (h : Shape.Concatenates [(⟨2, ![E, C]⟩ : Shape), ⟨2, ![E, C]⟩, ⟨2, ![E, C]⟩, ⟨2, ![E, C]⟩, ⟨2, ![E, C]⟩, ⟨2, ![E, C]⟩] ⟨2, ![T, C]⟩ 0)
    (x : Fin 6 → ((⟨2, ![E, C]⟩ : Shape).Idx → α)) (g : Fin 6) (e : Fin E) (he : E * g.val + e.val < T) (c : Fin C) :
    concatenate ⟨2, ![T, C]⟩ 0 [⟨_, x 0⟩, ⟨_, x 1⟩, ⟨_, x 2⟩, ⟨_, x 3⟩, ⟨_, x 4⟩, ⟨_, x 5⟩] h (ix2 ⟨E * g.val + e.val, he⟩ c)
      = x g (ix2 e c) := by
  have hE : 0 < E := Nat.zero_lt_of_lt e.isLt
  refine concatenate_ofFn_apply (t := ⟨2, ![T, C]⟩) (s₁ := ⟨2, ![E, C]⟩) 0 x h rfl E rfl
    (ix2 ⟨E * g.val + e.val, he⟩ c) g ?_ (ix2 e c) ?_ ?_
  · show (E * g.val + e.val) / E = g.val
    rw [Nat.mul_add_div hE, Nat.div_eq_of_lt e.isLt, Nat.add_zero]
  · show e.val = (E * g.val + e.val) % E
    rw [Nat.mul_add_mod, Nat.mod_eq_of_lt e.isLt]
  · intro b hb
    match b with
    | ⟨0, _⟩ => exact absurd rfl hb
    | ⟨1, _⟩ => rfl

/-- Entry `E g + e` of six `[E]` vectors joined end to end is entry `e` of piece `g`. -/
theorem join6_vec
    (h : Shape.Concatenates [(⟨1, ![E]⟩ : Shape), ⟨1, ![E]⟩, ⟨1, ![E]⟩, ⟨1, ![E]⟩, ⟨1, ![E]⟩, ⟨1, ![E]⟩] ⟨1, ![T]⟩ 0)
    (x : Fin 6 → ((⟨1, ![E]⟩ : Shape).Idx → α)) (g : Fin 6) (e : Fin E) (he : E * g.val + e.val < T) :
    concatenate ⟨1, ![T]⟩ 0 [⟨_, x 0⟩, ⟨_, x 1⟩, ⟨_, x 2⟩, ⟨_, x 3⟩, ⟨_, x 4⟩, ⟨_, x 5⟩] h (ix1 ⟨E * g.val + e.val, he⟩)
      = x g (ix1 e) := by
  have hE : 0 < E := Nat.zero_lt_of_lt e.isLt
  refine concatenate_ofFn_apply (t := ⟨1, ![T]⟩) (s₁ := ⟨1, ![E]⟩) 0 x h rfl E rfl
    (ix1 ⟨E * g.val + e.val, he⟩) g ?_ (ix1 e) ?_ ?_
  · show (E * g.val + e.val) / E = g.val
    rw [Nat.mul_add_div hE, Nat.div_eq_of_lt e.isLt, Nat.add_zero]
  · show e.val = (E * g.val + e.val) % E
    rw [Nat.mul_add_mod, Nat.mod_eq_of_lt e.isLt]
  · intro b hb
    match b with
    | ⟨0, _⟩ => exact absurd rfl hb

end Join6

/-! ## The joined gate weights and biases -/

/-- The first 1024 columns of the six joined gate weights, narrowed (the identity on the extended reals): row
    `1024 g + r` is row `r` of gate `g`'s weight. -/
theorem host_wx (W : Valuation τ sig (Elt Ideal)) (g : Fin 6) (r k : Fin 1024) :
    (StableHlo.after (hostOps0 (F := Ideal)) W (Proc.devRef .tc main_v3) : S6144x1024.Idx → EReal)
        (ix2 ⟨1024 * g.val + r.val, by omega⟩ k)
      = gW W g (ix2 r (lo k)) := by
  simp only [hostOps0]
  simp (disch := decide) only [after_cons, after_nil, nary6_result', unary_result', reshape_result',
    nary_result_ne', unary_result_ne', reshape_result_ne']
  refine Eq.trans (truncf_apply _ _ _) ?_
  refine (extractStridedSlice_apply (s := S6144x2048) (t := S6144x1024) _ _ _ _
    (ix2 ⟨1024 * g.val + r.val, by omega⟩ (lo k)) fun a => ?_).trans ?_
  · match a with
    | ⟨0, _⟩ => show 1024 * g.val + r.val = 0 + (1024 * g.val + r.val); omega
    | ⟨1, _⟩ => show k.val = 0 + k.val; omega
  exact join6_rows _ (gW W) g r _ (lo k)

/-- The last 1024 columns of the six joined gate weights, narrowed. -/
theorem host_wh (W : Valuation τ sig (Elt Ideal)) (g : Fin 6) (r k : Fin 1024) :
    (StableHlo.after (hostOps0 (F := Ideal)) W (Proc.devRef .tc main_v5) : S6144x1024.Idx → EReal)
        (ix2 ⟨1024 * g.val + r.val, by omega⟩ k)
      = gW W g (ix2 r (hi k)) := by
  simp only [hostOps0]
  simp (disch := decide) only [after_cons, after_nil, nary6_result', unary_result', reshape_result',
    nary_result_ne', unary_result_ne', reshape_result_ne']
  refine Eq.trans (truncf_apply _ _ _) ?_
  refine (extractStridedSlice_apply (s := S6144x2048) (t := S6144x1024) _ _ _ _
    (ix2 ⟨1024 * g.val + r.val, by omega⟩ (hi k)) fun a => ?_).trans ?_
  · match a with
    | ⟨0, _⟩ => show 1024 * g.val + r.val = 0 + (1024 * g.val + r.val); omega
    | ⟨1, _⟩ => show 1024 + k.val = 1024 + k.val; rfl
  exact join6_rows _ (gW W) g r _ (hi k)

/-- The six joined gate biases made a row: entry `(0, 1024 g + r)` is entry `r` of gate `g`'s bias. -/
theorem host_b (W : Valuation τ sig (Elt Ideal)) (g : Fin 6) (r : Fin 1024) :
    (StableHlo.after (hostOps0 (F := Ideal)) W (Proc.devRef .tc main_v6) : S1x6144.Idx → EReal)
        (ix2 (0 : Fin 1) ⟨1024 * g.val + r.val, by omega⟩)
      = gB W g (ix1 r) := by
  simp only [hostOps0]
  simp (disch := decide) only [after_cons, after_nil, nary6_result', unary_result', reshape_result',
    nary_result_ne', unary_result_ne', reshape_result_ne']
  -- the biases' buffers are not the one the weights' join wrote
  repeat (rw [nary_result_ne]; rotate_left; decide)
  refine (shapeCast_apply (s := S6144) (t := S1x6144) _ _ _ (ix1 ⟨1024 * g.val + r.val, by omega⟩) ?_).trans ?_
  · rw [Shape.rowMajor_val_one, Shape.rowMajor_val_two]
    show 1024 * g.val + r.val = 0 * 6144 + (1024 * g.val + r.val)
    omega
  exact join6_vec _ (gB W) g r _

end Cert.Lstm.Host

end
-- ==== Proof.KernelValue.lean ====
/-
  The idealized kernel program's results as functions of the launch memory.

  Each result buffer is followed back through the run's boundaries: the last host operation regroups the decay
  kernel's 4096 columns as 1024 groups of 4; each region leaves its result arrays at the functions of its entry arrays
  found block by block; the entry arrays are the launch arguments, or the stacked and halved weights and biases the
  first host operations make of them — row `1024 g + j` of a stack is row `j` of gate `g`'s weight, a first half's column
  `k` is column `k`, a second half's is column `1024 + k`.
-/
import proofs.«115463_j39719857553628_2_alg».proof.Proof.IdealRun
import proofs.«115463_j39719857553628_2_alg».proof.Proof.IdealBlocks0
import proofs.«115463_j39719857553628_2_alg».proof.Proof.IdealBlocks1
import proofs.«115463_j39719857553628_2_alg».proof.Proof.HostReads

set_option maxRecDepth 16384

noncomputable section

namespace Cert.KernelIdeal.Hand

open Cert.KernelIdeal Cert.KernelIdeal.Gen Cert.Lstm Cert.Lstm.Host
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The launch arguments, as functions of an index -/

def aX (c : Dev nD) : Rows := m ((c.tc : Thread nD τ).loc main_arg0)
def aH (c : Dev nD) : Rows := m ((c.tc : Thread nD τ).loc main_arg1)
def aC (c : Dev nD) : Rows := m ((c.tc : Thread nD τ).loc main_arg2)
def aCb (c : Dev nD) : Rows := m ((c.tc : Thread nD τ).loc main_arg3)
def aWd (c : Dev nD) : (⟨2, ![4096, 2048]⟩ : Shape).Idx → EReal := m ((c.tc : Thread nD τ).loc main_arg16)
def aBd (c : Dev nD) : (⟨1, ![4096]⟩ : Shape).Idx → EReal := m ((c.tc : Thread nD τ).loc main_arg17)

/-! ## The regions' entry arrays -/

theorem W1_arg0 (c : Dev nD) : W1 m c (Proc.devRef .tc main_arg0) = m ((c.tc : Thread nD τ).loc main_arg0) :=
  (StableHlo.after_of_writes_sub hostOps0 _ hostOps0_writes (by decide)).trans rfl
theorem W1_arg1 (c : Dev nD) : W1 m c (Proc.devRef .tc main_arg1) = m ((c.tc : Thread nD τ).loc main_arg1) :=
  (StableHlo.after_of_writes_sub hostOps0 _ hostOps0_writes (by decide)).trans rfl
theorem W1_arg2 (c : Dev nD) : W1 m c (Proc.devRef .tc main_arg2) = m ((c.tc : Thread nD τ).loc main_arg2) :=
  (StableHlo.after_of_writes_sub hostOps0 _ hostOps0_writes (by decide)).trans rfl
theorem W1_arg3 (c : Dev nD) : W1 m c (Proc.devRef .tc main_arg3) = m ((c.tc : Thread nD τ).loc main_arg3) :=
  (StableHlo.after_of_writes_sub hostOps0 _ hostOps0_writes (by decide)).trans rfl

theorem gX_eq (c : Dev nD) : gX (V1 m) c = aX m c := W1_arg0 m c
theorem gH_eq (c : Dev nD) : gH (V1 m) c = aH m c := W1_arg1 m c
theorem gC_eq (c : Dev nD) : gC (V1 m) c = aC m c := W1_arg2 m c
theorem gCb_eq (c : Dev nD) : gCb (V1 m) c = aCb m c := W1_arg3 m c

/-- The gates region leaves its input arrays as it found them. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

theorem eX_eq (c : Dev nD) : eX (V2 m) c = aX m c := (W2_in m c 0 rfl).trans (W1_arg0 m c)
theorem eH_eq (c : Dev nD) : eH (V2 m) c = aH m c := (W2_in m c 1 rfl).trans (W1_arg1 m c)

/-! ## A gate's pre-activation off the launch memory -/

theorem gz_eq (c : Dev nD) (g : Fin 6) (i : Fin 8192) (j : Fin 1024) :
    gz (V1 m) c g i j = pre (aX m c) (aH m c) (gW (W0 m c) g) (Cert.Lstm.Host.gB (W0 m c) g) i j := by
  unfold gz pre
  rw [gX_eq, gH_eq]
  refine congrArg₂ (· + ·) (congrArg₂ (· + ·) (Finset.sum_congr rfl fun k _ => ?_) (Finset.sum_congr rfl fun k _ => ?_)) ?_
  · exact congrArg (aX m c (ix2 i k) * ·) (host_wx (W0 m c) g j k)
  · exact congrArg (aH m c (ix2 i k) * ·) (host_wh (W0 m c) g j k)
  · exact host_b (W0 m c) g j

theorem decay_eq (c : Dev nD) (i : Fin 8192) (q : Fin 4096) :
    decayEntry (V2 m) c i q = act (pre (aX m c) (aH m c) (aWd m c) (aBd m c) i q) := by
  unfold decayEntry pre
  rw [eX_eq, eH_eq]
  refine congrArg act ?_
  have e8 : ∀ k, eWx (V2 m) c (ix2 q k) = aWd m c (ix2 q (lo k)) := fun k =>
    (congrFun (W2_of_ne m c main_v8 (by decide)) (ix2 q k)).trans (host_dx (W0 m c) q k)
  have e10 : ∀ k, eWh (V2 m) c (ix2 q k) = aWd m c (ix2 q (hi k)) := fun k =>
    (congrFun (W2_of_ne m c main_v10 (by decide)) (ix2 q k)).trans (host_dh (W0 m c) q k)
  have e11 : eB (V2 m) c (ix2 (0 : Fin 1) q) = aBd m c (ix1 q) :=
    (congrFun (W2_of_ne m c main_v11 (by decide)) (ix2 (0 : Fin 1) q)).trans (host_db (W0 m c) q)
  refine congrArg₂ (· + ·) (congrArg₂ (· + ·) (Finset.sum_congr rfl fun k _ => ?_) (Finset.sum_congr rfl fun k _ => ?_)) e11
  · exact congrArg (aX m c (ix2 i k) * ·) (e8 k)
  · exact congrArg (aH m c (ix2 i k) * ·) (e10 k)

/-! ## The four results -/

/-- The first cell update. -/
def res0 (c : Dev nD) : (⟨2, ![8192, 1024]⟩ : Shape).Idx → EReal :=
  arr2 (cellAt (aX m c) (aH m c) (aC m c) (gW (W0 m c) 0) (Cert.Lstm.Host.gB (W0 m c) 0) (gW (W0 m c) 1) (Cert.Lstm.Host.gB (W0 m c) 1) (gW (W0 m c) 5) (Cert.Lstm.Host.gB (W0 m c) 5))
/-- The second cell update. -/
def res1 (c : Dev nD) : (⟨2, ![8192, 1024]⟩ : Shape).Idx → EReal :=
  arr2 (cellAt (aX m c) (aH m c) (aCb m c) (gW (W0 m c) 3) (Cert.Lstm.Host.gB (W0 m c) 3) (gW (W0 m c) 4) (Cert.Lstm.Host.gB (W0 m c) 4) (gW (W0 m c) 5) (Cert.Lstm.Host.gB (W0 m c) 5))
/-- The decay. -/
def res2 (c : Dev nD) : (⟨3, ![8192, 1024, 4]⟩ : Shape).Idx → EReal := arr3 (decayAt (aX m c) (aH m c) (aWd m c) (aBd m c))
/-- The output gate. -/
def res3 (c : Dev nD) : (⟨2, ![8192, 1024]⟩ : Shape).Idx → EReal := arr2 (gateAt (aX m c) (aH m c) (gW (W0 m c) 2) (Cert.Lstm.Host.gB (W0 m c) 2))

theorem W4_v12_0 (c : Dev nD) : W4 m c (Proc.devRef .tc main_v12_0) = res0 m c := by
  have e4 : W4 m c (Proc.devRef .tc main_v12_0) = W3 m c (Proc.devRef .tc main_v12_0) :=
    StableHlo.after_of_writes_sub hostOps2 _ hostOps2_writes (by decide)
  have e3 : W3 m c (Proc.devRef .tc main_v12_0) = W2 m c (Proc.devRef .tc main_v12_0) := W3_of_ne m c main_v12_0 (by decide)
  refine e4.trans (e3.trans ((W2_arr m c 7).trans ((final0_7 (V1 m) c).trans ?_)))
  unfold cellArr res0
  refine congrArg arr2 (funext fun i => funext fun j => ?_)
  unfold cellEntry cellAt
  rw [gz_eq, gz_eq, gz_eq, gC_eq]

theorem W4_v12_1 (c : Dev nD) : W4 m c (Proc.devRef .tc main_v12_1) = res1 m c := by
  have e4 : W4 m c (Proc.devRef .tc main_v12_1) = W3 m c (Proc.devRef .tc main_v12_1) :=
    StableHlo.after_of_writes_sub hostOps2 _ hostOps2_writes (by decide)
  have e3 : W3 m c (Proc.devRef .tc main_v12_1) = W2 m c (Proc.devRef .tc main_v12_1) := W3_of_ne m c main_v12_1 (by decide)
  refine e4.trans (e3.trans ((W2_arr m c 8).trans ((final0_8 (V1 m) c).trans ?_)))
  unfold cellBarArr res1
  refine congrArg arr2 (funext fun i => funext fun j => ?_)
  unfold cellBarEntry cellAt
  rw [gz_eq, gz_eq, gz_eq, gCb_eq]

theorem W4_v12_2 (c : Dev nD) : W4 m c (Proc.devRef .tc main_v12_2) = res3 m c := by
  have e4 : W4 m c (Proc.devRef .tc main_v12_2) = W3 m c (Proc.devRef .tc main_v12_2) :=
    StableHlo.after_of_writes_sub hostOps2 _ hostOps2_writes (by decide)
  have e3 : W3 m c (Proc.devRef .tc main_v12_2) = W2 m c (Proc.devRef .tc main_v12_2) := W3_of_ne m c main_v12_2 (by decide)
  refine e4.trans (e3.trans ((W2_arr m c 9).trans ((final0_9 (V1 m) c).trans ?_)))
  unfold goArr res3
  refine congrArg arr2 (funext fun i => funext fun j => ?_)
  unfold goEntry gateAt
  rw [gz_eq]

theorem W4_v14 (c : Dev nD) : W4 m c (Proc.devRef .tc main_v14) = res2 m c := by
  funext y
  obtain ⟨i, j, l, rfl⟩ : ∃ (i : Fin 8192) (j : Fin 1024) (l : Fin 4), y = ix3 i j l := ⟨y 0, y 1, y 2, eq_ix3 y⟩
  refine (host_tail (W3 m c) i j l).trans ?_
  have e13 : W3 m c (Proc.devRef .tc main_v13) = decayArr (V2 m) c := (W3_arr m c 5).trans (final1 (V2 m) c)
  refine (congrFun e13 _).trans ?_
  unfold decayArr res2
  rw [arr2_ix2, arr3_ix3, decay_eq]
  rfl

/-! ## The run, read -/

/-- Every weakly fair execution of the idealized kernel program terminates, nothing faulting, with the four results at
    their functions of the launch memory and the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12_0) = res0 m c
      ∧ r.2.mem ((c.tc : Thread nD τ).loc main_v12_1) = res1 m c
      ∧ r.2.mem ((c.tc : Thread nD τ).loc main_v14) = res2 m c
      ∧ r.2.mem ((c.tc : Thread nD τ).loc main_v12_2) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run (defs (F := Ideal)) _ _).mono (fun r h c => ⟨
      (h c _ (mem_uc main_v12_0 (by decide))).trans (W4_v12_0 m c),
      (h c _ (mem_uc main_v12_1 (by decide))).trans (W4_v12_1 m c),
      (h c _ (mem_uc main_v14 (by decide))).trans (W4_v14 m c),
      (h c _ (mem_uc main_v12_2 (by decide))).trans (W4_v12_2 m c),
      (h c _ (mem_uc main_arg0 (by decide))).trans (W4_of_arg m c main_arg0 (by decide) (by decide) (by decide) (by decide)),
      (h c _ (mem_uc main_arg1 (by decide))).trans (W4_of_arg m c main_arg1 (by decide) (by decide) (by decide) (by decide)),
      (h c _ (mem_uc main_arg2 (by decide))).trans (W4_of_arg m c main_arg2 (by decide) (by decide) (by decide) (by decide)),
      (h c _ (mem_uc main_arg3 (by decide))).trans (W4_of_arg m c main_arg3 (by decide) (by decide) (by decide) (by decide)),
      (h c _ (mem_uc main_arg4 (by decide))).trans (W4_of_arg m c main_arg4 (by decide) (by decide) (by decide) (by decide)),
      (h c _ (mem_uc main_arg5 (by decide))).trans (W4_of_arg m c main_arg5 (by decide) (by decide) (by decide) (by decide)),
      (h c _ (mem_uc main_arg6 (by decide))).trans (W4_of_arg m c main_arg6 (by decide) (by decide) (by decide) (by decide)),
      (h c _ (mem_uc main_arg7 (by decide))).trans (W4_of_arg m c main_arg7 (by decide) (by decide) (by decide) (by decide)),
      (h c _ (mem_uc main_arg8 (by decide))).trans (W4_of_arg m c main_arg8 (by decide) (by decide) (by decide) (by decide)),
      (h c _ (mem_uc main_arg9 (by decide))).trans (W4_of_arg m c main_arg9 (by decide) (by decide) (by decide) (by decide)),
      (h c _ (mem_uc main_arg10 (by decide))).trans (W4_of_arg m c main_arg10 (by decide) (by decide) (by decide) (by decide)),
      (h c _ (mem_uc main_arg11 (by decide))).trans (W4_of_arg m c main_arg11 (by decide) (by decide) (by decide) (by decide)),
      (h c _ (mem_uc main_arg12 (by decide))).trans (W4_of_arg m c main_arg12 (by decide) (by decide) (by decide) (by decide)),
      (h c _ (mem_uc main_arg13 (by decide))).trans (W4_of_arg m c main_arg13 (by decide) (by decide) (by decide) (by decide)),
      (h c _ (mem_uc main_arg14 (by decide))).trans (W4_of_arg m c main_arg14 (by decide) (by decide) (by decide) (by decide)),
      (h c _ (mem_uc main_arg15 (by decide))).trans (W4_of_arg m c main_arg15 (by decide) (by decide) (by decide) (by decide)),
      (h c _ (mem_uc main_arg16 (by decide))).trans (W4_of_arg m c main_arg16 (by decide) (by decide) (by decide) (by decide)),
      (h c _ (mem_uc main_arg17 (by decide))).trans (W4_of_arg m c main_arg17 (by decide) (by decide) (by decide) (by decide))⟩)
    (run_all (F := Ideal) m ρ)

end Cert.KernelIdeal.Hand

end
-- ==== Proof.LibConcatCols.lean ====
/-
  Two arrays with the same rows joined side by side, read at an entry.

  Joining an [R, A] array and an [R, B] array along the second axis gives an [R, C] array (C = A + B) whose entry
  (r, k') is the first array's entry (r, k') when k' < A, and the second array's entry (r, k' - A) otherwise.
  Generic in R, A, B, C and in the entries' type.
-/
import Idealize.ShloMosaic.Lib.Pipeline.Value
import Idealize.ShloMosaic.Lib.ValueIdx

noncomputable section

namespace Cert.LibConcatCols

open Idealize.ShloMosaic Idealize.ShloMosaic.ValueIdx

variable {α : Type}

/-- An entry whose column lies in the first piece is the first piece's entry at the same row and column. -/
theorem concat_cols_left {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin A) (k' : Fin C) (hk : k'.val = k.val) :
    concatenate ⟨2, ![R, C]⟩ 1 [⟨⟨2, ![R, A]⟩, a⟩, ⟨⟨2, ![R, B]⟩, b⟩] h (ix2 r k') = a (ix2 r k) :=
  concatenate_pair_apply_left 1 a b h (ix2 r k') rfl (ix2 r k) fun ax => by
    match ax with
    | ⟨0, _⟩ => rfl
    | ⟨1, _⟩ => exact hk.symm

/-- An entry whose column lies in the second piece is the second piece's entry at the same row, the column moved back
    by the first piece's width. -/
theorem concat_cols_right {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin B) (k' : Fin C) (hk : k'.val = A + k.val) :
    concatenate ⟨2, ![R, C]⟩ 1 [⟨⟨2, ![R, A]⟩, a⟩, ⟨⟨2, ![R, B]⟩, b⟩] h (ix2 r k') = b (ix2 r k) :=
  concatenate_pair_apply_right 1 a b h (ix2 r k') rfl rfl (ix2 r k)
    (fun ax hne => by
      match ax with
      | ⟨0, _⟩ => rfl
      | ⟨1, _⟩ => exact absurd rfl hne)
    (by show k.val + A = k'.val; omega)

end Cert.LibConcatCols

end
-- ==== Proof.RefSide.lean ====
/-
  The reference program, entry by entry, computes the specified function.

  The reference lays `x` and `h` side by side (2048 columns), stacks the seven weights into one array of 10240 rows and
  the seven biases into one vector of 10240 entries, and takes a single product of the joined rows against the stacked
  weights, plus the stacked biases down the rows.  Entry `(i, off + j)` of that, where `off` rows lie before a piece of
  the stack, is row `i` of `[x h]` against row `j` of that piece, plus the piece's bias at `j`; and a sum over 2048
  columns is the sum over the first 1024 (those of `x`) plus the sum over the last 1024 (those of `h`).  That is the
  pre-activation of the piece at `(i, j)`.

  Each result is an activation of a block of columns: `1 / (1 + e⁻ᶻ)` written with the word for one is the logistic
  function; the softplus between a product with one and a quotient by one is `act`; the regrouping of 4096 columns as
  1024 groups of 4 sends `(j, l)` to column `4 j + l`.  Nothing here distributes a product over a sum, so no entry
  needs to be finite.
-/
import proofs.«115463_j39719857553628_2_alg».proof.Proof.Gen.ReferenceIdeal.Read
import proofs.«115463_j39719857553628_2_alg».proof.Proof.Spec
import proofs.«115463_j39719857553628_2_alg».proof.Proof.LibConcatCols

noncomputable section

open scoped BigOperators

namespace Cert.Lstm.Ref

open Cert.ReferenceIdeal Cert.ReferenceIdeal.Gen Cert.ReferenceIdeal.Read Cert.Lstm
open Idealize.ShloMosaic Idealize.ShloMosaic.ValueIdx Idealize.ShloMosaic.TcCoe Idealize.SL.Sem Idealize.ShloMosaic.StableHlo

/-- An array of extended reals of one of the reference's shapes. -/
abbrev Arr (s : Shape) : Type := (⟨s, .f32⟩ : BufTy).Contents (Elt Ideal)

/-! ## The three joined arrays read at an entry -/

/-- Row `i` of `x` and `h` laid side by side: a column in the first half is `x`'s. -/
theorem xh_lo (x0 x1 : Arr S8192x1024) (i : Fin 8192) (k : Fin 1024) :
    val_main_v0 (F := Ideal) x0 x1 (ix2 i (lo k)) = x0 (ix2 i k) := by
  unfold val_main_v0
  exact Cert.LibConcatCols.concat_cols_left x0 x1 _ i k (lo k) rfl

/-- A column in the second half is `h`'s, 1024 columns back. -/
theorem xh_hi (x0 x1 : Arr S8192x1024) (i : Fin 8192) (k : Fin 1024) :
    val_main_v0 (F := Ideal) x0 x1 (ix2 i (hi k)) = x1 (ix2 i k) := by
  unfold val_main_v0
  exact Cert.LibConcatCols.concat_cols_right x0 x1 _ i k (hi k) rfl

/-- The seven weights in the order they are stacked. -/
abbrev wpieces (x4 x6 x8 x10 x12 x14 : Arr S1024x2048) (x16 : Arr S4096x2048) : List ((s : Shape) × (s.Idx → EReal)) :=
  [⟨S1024x2048, x4⟩, ⟨S1024x2048, x6⟩, ⟨S1024x2048, x8⟩, ⟨S1024x2048, x10⟩, ⟨S1024x2048, x12⟩, ⟨S1024x2048, x14⟩, ⟨S4096x2048, x16⟩]

/-- The seven biases in the order they are stacked. -/
abbrev bpieces (x5 x7 x9 x11 x13 x15 : Arr S1024) (x17 : Arr S4096) : List ((s : Shape) × (s.Idx → EReal)) :=
  [⟨S1024, x5⟩, ⟨S1024, x7⟩, ⟨S1024, x9⟩, ⟨S1024, x11⟩, ⟨S1024, x13⟩, ⟨S1024, x15⟩, ⟨S4096, x17⟩]

/-- Row `off + j` of the stacked weights, where `off` rows lie before piece `k`, is row `j` of piece `k`. -/
theorem wcat_read (x4 x6 x8 x10 x12 x14 : Arr S1024x2048) (x16 : Arr S4096x2048) (k : Nat) (hk : k < (wpieces x4 x6 x8 x10 x12 x14 x16).length) {R : Nat}
    (W : (⟨2, ![R, 2048]⟩ : Shape).Idx → EReal) (hWk : (wpieces x4 x6 x8 x10 x12 x14 x16)[k] = ⟨⟨2, ![R, 2048]⟩, W⟩) (off : Nat)
    (hoff : ((((wpieces x4 x6 x8 x10 x12 x14 x16).take k).map (·.1)).map fun s => if h : s.rank = S10240x2048.rank then s.size ((0 : Fin S10240x2048.rank).cast h.symm) else 0).sum = off)
    (j : Fin R) (h : off + j.val < 10240) (c : Fin 2048) :
    val_main_v1 (F := Ideal) x4 x6 x8 x10 x12 x14 x16 (ix2 (⟨off + j.val, h⟩ : Fin 10240) c) = W (ix2 j c) :=
  concatenate_apply_piece (t := S10240x2048) 0 (wpieces x4 x6 x8 x10 x12 x14 x16)
    concatenates_S1024x2048_S1024x2048_S1024x2048_S1024x2048_S1024x2048_S1024x2048_S4096x2048_S10240x2048_d0
    (ix2 (⟨off + j.val, h⟩ : Fin 10240) c) k hk ⟨2, ![R, 2048]⟩ W hWk rfl off hoff (ix2 j c)
    (fun b hb => match b with
      | ⟨0, _⟩ => absurd rfl hb
      | ⟨1, _⟩ => rfl) rfl

/-- Entry `off + j` of the stacked biases is entry `j` of piece `k`. -/
theorem bcat_read (x5 x7 x9 x11 x13 x15 : Arr S1024) (x17 : Arr S4096) (k : Nat) (hk : k < (bpieces x5 x7 x9 x11 x13 x15 x17).length) {R : Nat}
    (b : (⟨1, ![R]⟩ : Shape).Idx → EReal) (hbk : (bpieces x5 x7 x9 x11 x13 x15 x17)[k] = ⟨⟨1, ![R]⟩, b⟩) (off : Nat)
    (hoff : ((((bpieces x5 x7 x9 x11 x13 x15 x17).take k).map (·.1)).map fun s => if h : s.rank = S10240.rank then s.size ((0 : Fin S10240.rank).cast h.symm) else 0).sum = off)
    (j : Fin R) (h : off + j.val < 10240) :
    val_main_v2 (F := Ideal) x5 x7 x9 x11 x13 x15 x17 (ix1 (⟨off + j.val, h⟩ : Fin 10240)) = b (ix1 j) :=
  concatenate_apply_piece (t := S10240) 0 (bpieces x5 x7 x9 x11 x13 x15 x17)
    concatenates_S1024_S1024_S1024_S1024_S1024_S1024_S4096_S10240_d0
    (ix1 (⟨off + j.val, h⟩ : Fin 10240)) k hk ⟨1, ![R]⟩ b hbk rfl off hoff (ix1 j)
    (fun b' hb => match b' with
      | ⟨0, _⟩ => absurd rfl hb) rfl

/-! ## The pre-activation -/

/-- Entry `(i, j)` of the joined product plus bias: row `i` of `[x h]` against row `j` of the stacked weights, plus
    entry `j` of the stacked biases. -/
theorem z_apply (x0 x1 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) (i : Fin 8192) (j : Fin 10240) :
    val_main_v7 (F := Ideal) x0 x1 x4 x5 x6 x7 x8 x9 x10 x11 x12 x13 x14 x15 x16 x17 (ix2 i j)
      = (∑ k : Fin 2048, val_main_v0 (F := Ideal) x0 x1 (ix2 i k) * val_main_v1 (F := Ideal) x4 x6 x8 x10 x12 x14 x16 (ix2 j k))
        + val_main_v2 (F := Ideal) x5 x7 x9 x11 x13 x15 x17 (ix1 j) := by
  rw [val_main_v7_apply, val_main_v4_apply, val_main_v6_apply, val_main_v5_apply]
  refine congrArg₂ (· + ·) (Finset.sum_congr rfl fun k _ => ?_) ?_
  · rw [val_main_v3_apply]
    refine congrArg₂ (· * ·) (congrArg _ ?_) (congrArg _ ?_)
    · funext a
      match a with
      | ⟨0, _⟩ => rfl
      | ⟨1, _⟩ => rfl
    · funext a
      match a with
      | ⟨0, _⟩ => rfl
      | ⟨1, _⟩ => rfl
  · refine congrArg _ ?_
    funext a
    match a with
    | ⟨0, _⟩ => rfl

/-- At a column `off + j` inside piece `k` of the stacked weights and biases, that entry is the pre-activation of the
    piece's weight and bias at `(i, j)`: the sum over 2048 columns splits into the `x` half and the `h` half. -/
theorem pre_at (x0 x1 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) (k : Nat) (hkW : k < (wpieces x4 x6 x8 x10 x12 x14 x16).length) (hkb : k < (bpieces x5 x7 x9 x11 x13 x15 x17).length) {R : Nat}
    (W : (⟨2, ![R, 2048]⟩ : Shape).Idx → EReal) (b : (⟨1, ![R]⟩ : Shape).Idx → EReal)
    (hWk : (wpieces x4 x6 x8 x10 x12 x14 x16)[k] = ⟨⟨2, ![R, 2048]⟩, W⟩) (hbk : (bpieces x5 x7 x9 x11 x13 x15 x17)[k] = ⟨⟨1, ![R]⟩, b⟩) (off : Nat)
    (hoffW : ((((wpieces x4 x6 x8 x10 x12 x14 x16).take k).map (·.1)).map fun s => if h : s.rank = S10240x2048.rank then s.size ((0 : Fin S10240x2048.rank).cast h.symm) else 0).sum = off)
    (hoffb : ((((bpieces x5 x7 x9 x11 x13 x15 x17).take k).map (·.1)).map fun s => if h : s.rank = S10240.rank then s.size ((0 : Fin S10240.rank).cast h.symm) else 0).sum = off)
    (i : Fin 8192) (j : Fin R) (h : off + j.val < 10240) :
    val_main_v7 (F := Ideal) x0 x1 x4 x5 x6 x7 x8 x9 x10 x11 x12 x13 x14 x15 x16 x17 (ix2 i (⟨off + j.val, h⟩ : Fin 10240)) = pre x0 x1 W b i j := by
  rw [z_apply, sum_halves, bcat_read x5 x7 x9 x11 x13 x15 x17 k hkb b hbk off hoffb j h]
  unfold pre
  refine congrArg (· + b (ix1 j)) (congrArg₂ (· + ·) (Finset.sum_congr rfl fun c _ => ?_) (Finset.sum_congr rfl fun c _ => ?_))
  · rw [xh_lo, wcat_read x4 x6 x8 x10 x12 x14 x16 k hkW W hWk off hoffW j h (lo c)]
  · rw [xh_hi, wcat_read x4 x6 x8 x10 x12 x14 x16 k hkW W hWk off hoffW j h (hi c)]

/-! ## The activations -/

/-- The word for one denotes one. -/
theorem one_word : Ideal.ofBits .f32 0x3F800000#32 = 1 := by
  simp [Ideal.ofBits, Ideal.ieee, -EReal.coe_mul]; norm_num

/-- `1 / (1 + e⁻ᶻ)` spelt with the word for one is the logistic function. -/
theorem sg_spelt (z : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf z))) = sg z := by
  show Ideal.div (Ideal.ofBits .f32 0x3F800000#32) (Ideal.ofBits .f32 0x3F800000#32 + Ideal.exp (-z)) = Ideal.div 1 (1 + Ideal.exp (-z))
  rw [one_word]

/-- The softplus between a product with one and a quotient by one, as the reference spells it, is `act`: a negation is
    zero less the value, and "not equal" reads the same whether or not it is ordered. -/
theorem act_spelt (z : Ideal .f32) :
    FloatOps.hostDivf (F := Ideal) (φ := .f32)
      (Scalar.select
        (FloatOps.cmpf .une (FloatOps.subf (FloatOps.mulf (FloatOps.ofBits .f32 0x3F800000#32) z) (FloatOps.ofBits .f32 0x00000000#32))
          (FloatOps.subf (FloatOps.mulf (FloatOps.ofBits .f32 0x3F800000#32) z) (FloatOps.ofBits .f32 0x00000000#32)))
        (FloatOps.addf (FloatOps.mulf (FloatOps.ofBits .f32 0x3F800000#32) z) (FloatOps.ofBits .f32 0x00000000#32))
        (FloatOps.addf (FloatOps.maximumf (FloatOps.mulf (FloatOps.ofBits .f32 0x3F800000#32) z) (FloatOps.ofBits .f32 0x00000000#32))
          (FloatOps.hostUnary .log1p (FloatOps.hostUnary .exp (FloatOps.hostNegf (FloatOps.hostAbsf
            (FloatOps.subf (FloatOps.mulf (FloatOps.ofBits .f32 0x3F800000#32) z) (FloatOps.ofBits .f32 0x00000000#32))))))))
      (FloatOps.ofBits .f32 0x3F800000#32) = act z := by
  unfold act
  have hneg : ∀ y : Ideal .f32, FloatOps.hostNegf (F := Ideal) (φ := .f32) y = FloatOps.subf (F := Ideal) (φ := .f32) (Scalar.ofBits .f32 0x00000000#32) y := fun y => by
    show -y = Ideal.ofBits .f32 0x00000000#32 - y
    rw [Ideal.ofBits_zero_f32, zero_sub]
  rw [hneg]
  rfl

/-- The input gate: the logistic function of columns 0–1023 of the joined pre-activation. -/
theorem sig_input (x0 x1 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) (i : Fin 8192) (j : Fin 1024) :
    val_main_v14 (F := Ideal) x0 x1 x4 x5 x6 x7 x8 x9 x10 x11 x12 x13 x14 x15 x16 x17 (ix2 i j) = sg (pre x0 x1 x4 x5 i j) := by
  rw [val_main_v14_apply, val_main_v13_apply, val_main_cst_0_apply, val_main_v12_apply, val_main_v11_apply,
    val_main_cst_apply, val_main_v10_apply, val_main_v9_apply, val_main_v8_apply, sg_spelt]
  have e : idx_main_v8 (ix2 i j) = ix2 i (⟨0 + j.val, by have := j.isLt; omega⟩ : Fin 10240) := by
    funext a
    match a with
    | ⟨0, _⟩ => rfl
    | ⟨1, _⟩ => exact Fin.ext (Nat.zero_add _).symm
  rw [e, pre_at x0 x1 x4 x5 x6 x7 x8 x9 x10 x11 x12 x13 x14 x15 x16 x17 0 (show 0 < 7 by decide) (show 0 < 7 by decide) x4 x5 rfl rfl 0 rfl rfl i j]

/-- The forget gate: the logistic function of columns 1024–2047 of the joined pre-activation. -/
theorem sig_forget (x0 x1 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) (i : Fin 8192) (j : Fin 1024) :
    val_main_v21 (F := Ideal) x0 x1 x4 x5 x6 x7 x8 x9 x10 x11 x12 x13 x14 x15 x16 x17 (ix2 i j) = sg (pre x0 x1 x6 x7 i j) := by
  rw [val_main_v21_apply, val_main_v20_apply, val_main_cst_2_apply, val_main_v19_apply, val_main_v18_apply,
    val_main_cst_1_apply, val_main_v17_apply, val_main_v16_apply, val_main_v15_apply, sg_spelt]
  have e : idx_main_v15 (ix2 i j) = ix2 i (⟨1024 + j.val, by have := j.isLt; omega⟩ : Fin 10240) := by
    funext a
    match a with
    | ⟨0, _⟩ => rfl
    | ⟨1, _⟩ => exact Fin.ext rfl
  rw [e, pre_at x0 x1 x4 x5 x6 x7 x8 x9 x10 x11 x12 x13 x14 x15 x16 x17 1 (show 1 < 7 by decide) (show 1 < 7 by decide) x6 x7 rfl rfl 1024 rfl rfl i j]

/-- The output gate: the logistic function of columns 2048–3071 of the joined pre-activation. -/
theorem sig_output (x0 x1 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) (i : Fin 8192) (j : Fin 1024) :
    val_main_v28 (F := Ideal) x0 x1 x4 x5 x6 x7 x8 x9 x10 x11 x12 x13 x14 x15 x16 x17 (ix2 i j) = sg (pre x0 x1 x8 x9 i j) := by
  rw [val_main_v28_apply, val_main_v27_apply, val_main_cst_4_apply, val_main_v26_apply, val_main_v25_apply,
    val_main_cst_3_apply, val_main_v24_apply, val_main_v23_apply, val_main_v22_apply, sg_spelt]
  have e : idx_main_v22 (ix2 i j) = ix2 i (⟨2048 + j.val, by have := j.isLt; omega⟩ : Fin 10240) := by
    funext a
    match a with
    | ⟨0, _⟩ => rfl
    | ⟨1, _⟩ => exact Fin.ext rfl
  rw [e, pre_at x0 x1 x4 x5 x6 x7 x8 x9 x10 x11 x12 x13 x14 x15 x16 x17 2 (show 2 < 7 by decide) (show 2 < 7 by decide) x8 x9 rfl rfl 2048 rfl rfl i j]

/-- The input-bar gate: the logistic function of columns 3072–4095 of the joined pre-activation. -/
theorem sig_input_bar (x0 x1 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) (i : Fin 8192) (j : Fin 1024) :
    val_main_v35 (F := Ideal) x0 x1 x4 x5 x6 x7 x8 x9 x10 x11 x12 x13 x14 x15 x16 x17 (ix2 i j) = sg (pre x0 x1 x10 x11 i j) := by
  rw [val_main_v35_apply, val_main_v34_apply, val_main_cst_6_apply, val_main_v33_apply, val_main_v32_apply,
    val_main_cst_5_apply, val_main_v31_apply, val_main_v30_apply, val_main_v29_apply, sg_spelt]
  have e : idx_main_v29 (ix2 i j) = ix2 i (⟨3072 + j.val, by have := j.isLt; omega⟩ : Fin 10240) := by
    funext a
    match a with
    | ⟨0, _⟩ => rfl
    | ⟨1, _⟩ => exact Fin.ext rfl
  rw [e, pre_at x0 x1 x4 x5 x6 x7 x8 x9 x10 x11 x12 x13 x14 x15 x16 x17 3 (show 3 < 7 by decide) (show 3 < 7 by decide) x10 x11 rfl rfl 3072 rfl rfl i j]

/-- The forget-bar gate: the logistic function of columns 4096–5119 of the joined pre-activation. -/
theorem sig_forget_bar (x0 x1 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) (i : Fin 8192) (j : Fin 1024) :
    val_main_v42 (F := Ideal) x0 x1 x4 x5 x6 x7 x8 x9 x10 x11 x12 x13 x14 x15 x16 x17 (ix2 i j) = sg (pre x0 x1 x12 x13 i j) := by
  rw [val_main_v42_apply, val_main_v41_apply, val_main_cst_8_apply, val_main_v40_apply, val_main_v39_apply,
    val_main_cst_7_apply, val_main_v38_apply, val_main_v37_apply, val_main_v36_apply, sg_spelt]
  have e : idx_main_v36 (ix2 i j) = ix2 i (⟨4096 + j.val, by have := j.isLt; omega⟩ : Fin 10240) := by
    funext a
    match a with
    | ⟨0, _⟩ => rfl
    | ⟨1, _⟩ => exact Fin.ext rfl
  rw [e, pre_at x0 x1 x4 x5 x6 x7 x8 x9 x10 x11 x12 x13 x14 x15 x16 x17 4 (show 4 < 7 by decide) (show 4 < 7 by decide) x12 x13 rfl rfl 4096 rfl rfl i j]

/-- The candidate: the hyperbolic tangent of columns 5120–6143 of the joined pre-activation. -/
theorem tanh_cand (x0 x1 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) (i : Fin 8192) (j : Fin 1024) :
    val_main_v44 (F := Ideal) x0 x1 x4 x5 x6 x7 x8 x9 x10 x11 x12 x13 x14 x15 x16 x17 (ix2 i j) = th (pre x0 x1 x14 x15 i j) := by
  rw [val_main_v44_apply, val_main_v43_apply]
  have e : idx_main_v43 (ix2 i j) = ix2 i (⟨5120 + j.val, by have := j.isLt; omega⟩ : Fin 10240) := by
    funext a
    match a with
    | ⟨0, _⟩ => rfl
    | ⟨1, _⟩ => exact Fin.ext rfl
  rw [e, pre_at x0 x1 x4 x5 x6 x7 x8 x9 x10 x11 x12 x13 x14 x15 x16 x17 5 (show 5 < 7 by decide) (show 5 < 7 by decide) x14 x15 rfl rfl 5120 rfl rfl i j]
  rfl

/-- The decay before its regrouping: `act` of columns 6144–10239 of the joined pre-activation. -/
theorem decay_flat (x0 x1 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) (i : Fin 8192) (j : Fin 4096) :
    val_main_v50 (F := Ideal) x0 x1 x4 x5 x6 x7 x8 x9 x10 x11 x12 x13 x14 x15 x16 x17 (ix2 i j) = act (pre x0 x1 x16 x17 i j) := by
  rw [val_main_v50_apply, val_main_v49_apply, val_main_cst_10_apply, val_main_v48_apply, val_main_call0_v4_apply,
    val_main_call0_v3_apply, val_main_call0_v2_apply, val_main_call0_cst_apply, val_main_call0_v6_apply, val_main_call0_v5_apply,
    val_main_call0_cst_apply, val_main_call0_v11_apply, val_main_call0_v1_apply, val_main_call0_v0_apply, val_main_call0_cst_apply,
    val_main_call0_v10_apply, val_main_call0_v9_apply, val_main_call0_v8_apply, val_main_call0_v7_apply, val_main_call0_v3_apply,
    val_main_call0_v2_apply, val_main_call0_cst_apply, val_main_v47_apply, val_main_v46_apply, val_main_cst_9_apply, val_main_v45_apply]
  refine (act_spelt _).trans ?_
  have e : idx_main_v45 (ix2 i j) = ix2 i (⟨6144 + j.val, by have := j.isLt; omega⟩ : Fin 10240) := by
    funext a
    match a with
    | ⟨0, _⟩ => rfl
    | ⟨1, _⟩ => exact Fin.ext rfl
  rw [e, pre_at x0 x1 x4 x5 x6 x7 x8 x9 x10 x11 x12 x13 x14 x15 x16 x17 6 (show 6 < 7 by decide) (show 6 < 7 by decide) x16 x17 rfl rfl 6144 rfl rfl i j]

/-! ## The four results -/

/-- The cell update at an entry. -/
theorem cell_at (x0 x1 x2 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) (i : Fin 8192) (j : Fin 1024) :
    val_main_v54 (F := Ideal) x0 x1 x2 x4 x5 x6 x7 x8 x9 x10 x11 x12 x13 x14 x15 x16 x17 (ix2 i j) = cellAt x0 x1 x2 x4 x5 x6 x7 x14 x15 i j := by
  rw [val_main_v54_apply, val_main_v52_apply, val_main_v53_apply, sig_forget, sig_input, tanh_cand]
  rfl

/-- The second cell update at an entry: the barred gates, the same candidate. -/
theorem cell_bar_at (x0 x1 x3 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) (i : Fin 8192) (j : Fin 1024) :
    val_main_v57 (F := Ideal) x0 x1 x3 x4 x5 x6 x7 x8 x9 x10 x11 x12 x13 x14 x15 x16 x17 (ix2 i j) = cellAt x0 x1 x3 x10 x11 x12 x13 x14 x15 i j := by
  rw [val_main_v57_apply, val_main_v55_apply, val_main_v56_apply, sig_forget_bar, sig_input_bar, tanh_cand]
  rfl

/-- The first cell state the reference returns is `σ(forget)·c + σ(input)·tanh(candidate)` at every entry. -/
theorem ref_cell (x0 x1 x2 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) :
    val_main_v54 (F := Ideal) x0 x1 x2 x4 x5 x6 x7 x8 x9 x10 x11 x12 x13 x14 x15 x16 x17 = arr2 (cellAt x0 x1 x2 x4 x5 x6 x7 x14 x15) := by
  funext idx
  obtain ⟨a, b, rfl⟩ : ∃ (a : Fin 8192) (b : Fin 1024), idx = ix2 a b := ⟨idx 0, idx 1, eq_ix2 idx⟩
  rw [arr2_ix2]
  exact cell_at x0 x1 x2 x4 x5 x6 x7 x8 x9 x10 x11 x12 x13 x14 x15 x16 x17 a b

/-- The second cell state likewise, from the barred gates and the second cell input. -/
theorem ref_cell_bar (x0 x1 x3 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) :
    val_main_v57 (F := Ideal) x0 x1 x3 x4 x5 x6 x7 x8 x9 x10 x11 x12 x13 x14 x15 x16 x17 = arr2 (cellAt x0 x1 x3 x10 x11 x12 x13 x14 x15) := by
  funext idx
  obtain ⟨a, b, rfl⟩ : ∃ (a : Fin 8192) (b : Fin 1024), idx = ix2 a b := ⟨idx 0, idx 1, eq_ix2 idx⟩
  rw [arr2_ix2]
  exact cell_bar_at x0 x1 x3 x4 x5 x6 x7 x8 x9 x10 x11 x12 x13 x14 x15 x16 x17 a b

/-- The output gate the reference returns is `σ(output)` at every entry. -/
theorem ref_gate (x0 x1 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) :
    val_main_v28 (F := Ideal) x0 x1 x4 x5 x6 x7 x8 x9 x10 x11 x12 x13 x14 x15 x16 x17 = arr2 (gateAt x0 x1 x8 x9) := by
  funext idx
  obtain ⟨a, b, rfl⟩ : ∃ (a : Fin 8192) (b : Fin 1024), idx = ix2 a b := ⟨idx 0, idx 1, eq_ix2 idx⟩
  rw [arr2_ix2]
  exact sig_output x0 x1 x4 x5 x6 x7 x8 x9 x10 x11 x12 x13 x14 x15 x16 x17 a b

/-- Regrouping 4096 columns as 1024 groups of 4 keeps the row and sends `(j, l)` to column `4 j + l`. -/
theorem ref_decay (x0 x1 : Arr S8192x1024) (x4 : Arr S1024x2048) (x5 : Arr S1024) (x6 : Arr S1024x2048) (x7 : Arr S1024) (x8 : Arr S1024x2048) (x9 : Arr S1024) (x10 : Arr S1024x2048) (x11 : Arr S1024) (x12 : Arr S1024x2048) (x13 : Arr S1024) (x14 : Arr S1024x2048) (x15 : Arr S1024) (x16 : Arr S4096x2048) (x17 : Arr S4096) :
    val_main_v51 (F := Ideal) x0 x1 x4 x5 x6 x7 x8 x9 x10 x11 x12 x13 x14 x15 x16 x17 = arr3 (decayAt x0 x1 x16 x17) := by
  funext idx
  obtain ⟨a, b, l, rfl⟩ : ∃ (a : Fin 8192) (b : Fin 1024) (l : Fin 4), idx = ix3 a b l := ⟨idx 0, idx 1, idx 2, eq_ix3 idx⟩
  rw [arr3_ix3, val_main_v51_apply]
  have ha := a.isLt
  have hb := b.isLt
  have hl := l.isLt
  have e : idx_main_v51 (ix3 a b l) = ix2 a (⟨4 * b.val + l.val, by omega⟩ : Fin 4096) := by
    funext ax
    match ax with
    | ⟨0, _⟩ => exact Fin.ext (by show ((a.val * 1024 + b.val) * 4 + l.val) / 4096 = a.val; omega)
    | ⟨1, _⟩ => exact Fin.ext (by show ((a.val * 1024 + b.val) * 4 + l.val) % 4096 = 4 * b.val + l.val; omega)
  rw [e, decay_flat]
  rfl

end Cert.Lstm.Ref

end
-- ==== Proof.Algebraic.lean ====
/-
  The two idealized programs end with equal results.

  The kernel program's four results are the specification's functions of its launch memory (the cell updates
  `σ(forget)·c + σ(input)·tanh(candidate)`, the decay's activation regrouped in fours, the output gate), and the
  reference's four result stages are the same functions of ITS launch memory; the memories agree on the arguments.
  The one law between the two sides is that the reference's single product over 2048 columns of `[x, h]` against a
  weight row is the kernel's two products over 1024 columns, a finite sum split in halves: no entry needs to be finite.
-/
import proofs.«115463_j39719857553628_2_alg».proof.Defs
import proofs.«115463_j39719857553628_2_alg».proof.Proof.KernelValue
import proofs.«115463_j39719857553628_2_alg».proof.Proof.RefSide
import proofs.«115463_j39719857553628_2_alg».proof.Proof.Gen.Pre_finite_inputs

noncomputable section

namespace Cert.Proof.Alg

open Idealize.ShloMosaic Idealize.ShloMosaic.TcCoe Idealize.SL.Sem
open Cert.KernelIdeal.Hand

theorem algebraic : Cert.algebraic_KernelIdeal_ReferenceIdeal := by
  intro m ρ m' ρ' _ hagree
  refine ⟨fun c => res0 m c, fun c => res1 m c, fun c => res2 m c, fun c => res3 m c, kernel_run m ρ, ?_⟩
  refine (θ_run Cert.ReferenceIdeal.defs _ _).mono (fun r h c => ?_) (Cert.ReferenceIdeal.Value.run (F := Ideal) m' ρ')
  obtain ⟨h0, h1, h2, h3, h4, h5, h6, h7, h8, h9, h10, h11, h12, h13, h14, h15, h16, h17⟩ := hagree c
  obtain ⟨r0, r1, r2, r3, rest⟩ := h c
  refine ⟨?_, ?_, ?_, ?_, rest⟩
  · rw [r0, Cert.ReferenceIdeal.Read.val_main_v54_eq, Cert.Lstm.Ref.ref_cell, h0, h1, h2, h4, h5, h6, h7, h14, h15]; rfl
  · rw [r1, Cert.ReferenceIdeal.Read.val_main_v57_eq, Cert.Lstm.Ref.ref_cell_bar, h0, h1, h3, h10, h11, h12, h13, h14, h15]; rfl
  · rw [r2, Cert.ReferenceIdeal.Read.val_main_v51_eq, Cert.Lstm.Ref.ref_decay, h0, h1, h16, h17]; rfl
  · rw [r3, Cert.ReferenceIdeal.Read.val_main_v28_eq, Cert.Lstm.Ref.ref_gate, h0, h1, h8, h9]; rfl

end Cert.Proof.Alg

end
-- ==== Proof.lean ====
/-
  The certificate of an LSTM-style cell with a decay head: a gates kernel (six 1024-wide gates, two cell updates and
  an output gate) and a decay kernel (a 4096-wide softplus), each a 32-point grid over 256-row blocks with the weights
  resident, against one fused product of `[x, h]` with all seven stacked weights.

  Frames: each program is a stretch of host operations, the regions, and a last host operation; every region's body
  runs on its staged blocks and the launch theorem chains the segments, the arguments never written.  Sanctioned
  idealization: the ideal pass rewrote nothing.  Equal results at the ideal instance: both sides are the same
  functions of the arguments, entry by entry, the reference's 2048-column products splitting into the kernel's two
  1024-column products.
-/
import proofs.«115463_j39719857553628_2_alg».proof.Defs
import proofs.«115463_j39719857553628_2_alg».proof.Proof.Gen.Kernel
import proofs.«115463_j39719857553628_2_alg».proof.Proof.Gen.KernelIdeal
import proofs.«115463_j39719857553628_2_alg».proof.Proof.Gen.ReferenceIdeal
import proofs.«115463_j39719857553628_2_alg».proof.Proof.Gen.ReferenceIdeal.Run
import proofs.«115463_j39719857553628_2_alg».proof.Proof.Gen.ReferenceIdeal.Read
import proofs.«115463_j39719857553628_2_alg».proof.Proof.Gen.Pre_finite_inputs
import proofs.«115463_j39719857553628_2_alg».proof.Proof.Frames
import proofs.«115463_j39719857553628_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_r, trivial, Cert.Proof.Alg.algebraic⟩

end Cert.Proof

end
